-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S64 .f32) (main_arg16 : FVec F S64x32 .f32) (main_arg17 : FVec F S32 .f32) (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg16
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64x32 .f32) (main_arg17 : FVec F S32 .f32) (main_arg18 : FVec F S32x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x32 : Shape := ⟨2, ![1, 32]⟩
abbrev S1x1 : Shape := ⟨2, ![1, 1]⟩
abbrev S5000x1 : Shape := ⟨2, ![5000, 1]⟩
abbrev S5000x32 : Shape := ⟨2, ![5000, 32]⟩

abbrev nBuf : Space → Nat
  | .hbm => 83
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x32, .f32⟩
  | .hbm, ⟨80, _⟩ => ⟨S1x1, .f32⟩
  | .hbm, ⟨81, _⟩ => ⟨S100000x1, .f32⟩
  | .hbm, ⟨82, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x32, .f32⟩
  | .local _ .vmem, ⟨25, _⟩ => ⟨S1x32, .f32⟩
  | .local _ .vmem, ⟨26, _⟩ => ⟨S32x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S1_S1x1 : S1.ShapeCasts S1x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x32.size a ≤ S64x32.size a
  hwx1_9 : ∀ i : grid1.Coords, EltTy.bits .f32 = 32 ∨ (Rect.block (s := S64x32) S64x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x1.size a ≤ S32x1.size a
  hwx1_11 : ∀ i : grid1.Coords, EltTy.bits .f32 = 32 ∨ (Rect.block (s := S32x1) S32x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x1.size a ≤ S100000x1.size a
  hwx1_13 : ∀ i : grid1.Coords, EltTy.bits .f32 = 32 ∨ (Rect.block (s := S100000x1) S5000x1.size (cc1_transform_13 i) (hinb1_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S64x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v49) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg18) S32x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v50) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v51) S5000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S128x64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64x32, .f32⟩
  | 17 => ⟨S32, .f32⟩
  | 18 => ⟨S32x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000x1, .f32⟩
  | 50 => ⟨S100000x128, .f32⟩
  | 51 => ⟨S100000x128, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S64, .f32⟩
  | 63 => ⟨S64, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x1, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x1, .f32⟩
  | 122 => ⟨S1x1, .f32⟩
  | 123 => ⟨S100000x1, .f32⟩
  | 124 => ⟨S100000x1, .f32⟩
  | 125 => ⟨S100000x1, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | 5 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call0_cst : Ref sig .tc := ⟨.hbm, 72, rfl⟩
abbrev main_call0_v0 : Ref sig .tc := ⟨.hbm, 73, rfl⟩
abbrev main_v44 : Ref sig .tc := ⟨.hbm, 74, rfl⟩
abbrev main_c_6 : Ref sig .tc := ⟨.hbm, 75, rfl⟩
abbrev main_v45 : Ref sig .tc := ⟨.hbm, 76, rfl⟩
abbrev main_v46 : Ref sig .tc := ⟨.hbm, 77, rfl⟩
abbrev main_c_7 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call1_cst : Ref sig .tc := ⟨.hbm, 111, rfl⟩
abbrev main_call1_v0 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call2_cst : Ref sig .tc := ⟨.hbm, 118, rfl⟩
abbrev main_call2_v0 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_10 : Ref sig .tc := ⟨.hbm, 127, rfl⟩
abbrev main_v89 : Ref sig .tc := ⟨.hbm, 128, rfl⟩
abbrev main_v90 : Ref sig .tc := ⟨.hbm, 129, rfl⟩
abbrev main_cst_11 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel program's run, with the result buffer named.

  The program is five segments: host operations, the first pallas_call, host operations, the second pallas_call, one
  closing reshape.  The buffer contents at each segment boundary are a fold from the launch memory: a host stretch
  applies its operations, a pallas_call leaves each of its arrays at what the write-backs of its grid points fold to
  and every other buffer as it was.  Every weakly fair execution terminates with EVERY unscoped buffer at the last
  boundary's contents (`run_all`); the result buffer and the twenty argument buffers are read off that
  (`run_result`).
-/
import proofs.«127177_j12850542150153_1_alg».proof.Proof.FramePKernelIdeal

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the contents the fold through the five segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result buffer and the arguments named: the result at the last boundary's contents, each argument
    as launched. -/
theorem run_result : θ_run defs (onTc (τ := τ) (main (F := F))) ⟨m, fun _ => 0, ρ⟩ (fun r => ∀ c : Dev nD,
      r.2.mem ((c.tc : Thread nD τ).loc main_v52) = W5 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
      ⟨h c _ (GenP.mem_uc main_v52 (by decide)),
       (h c _ (GenP.mem_uc main_arg0 (by decide))).trans (GenP.W5_main_arg0 m ρ c),
       (h c _ (GenP.mem_uc main_arg1 (by decide))).trans (GenP.W5_main_arg1 m ρ c),
       (h c _ (GenP.mem_uc main_arg2 (by decide))).trans (GenP.W5_main_arg2 m ρ c),
       (h c _ (GenP.mem_uc main_arg3 (by decide))).trans (GenP.W5_main_arg3 m ρ c),
       (h c _ (GenP.mem_uc main_arg4 (by decide))).trans (GenP.W5_main_arg4 m ρ c),
       (h c _ (GenP.mem_uc main_arg5 (by decide))).trans (GenP.W5_main_arg5 m ρ c),
       (h c _ (GenP.mem_uc main_arg6 (by decide))).trans (GenP.W5_main_arg6 m ρ c),
       (h c _ (GenP.mem_uc main_arg7 (by decide))).trans (GenP.W5_main_arg7 m ρ c),
       (h c _ (GenP.mem_uc main_arg8 (by decide))).trans (GenP.W5_main_arg8 m ρ c),
       (h c _ (GenP.mem_uc main_arg9 (by decide))).trans (GenP.W5_main_arg9 m ρ c),
       (h c _ (GenP.mem_uc main_arg10 (by decide))).trans (GenP.W5_main_arg10 m ρ c),
       (h c _ (GenP.mem_uc main_arg11 (by decide))).trans (GenP.W5_main_arg11 m ρ c),
       (h c _ (GenP.mem_uc main_arg12 (by decide))).trans (GenP.W5_main_arg12 m ρ c),
       (h c _ (GenP.mem_uc main_arg13 (by decide))).trans (GenP.W5_main_arg13 m ρ c),
       (h c _ (GenP.mem_uc main_arg14 (by decide))).trans (GenP.W5_main_arg14 m ρ c),
       (h c _ (GenP.mem_uc main_arg15 (by decide))).trans (GenP.W5_main_arg15 m ρ c),
       (h c _ (GenP.mem_uc main_arg16 (by decide))).trans (GenP.W5_main_arg16 m ρ c),
       (h c _ (GenP.mem_uc main_arg17 (by decide))).trans (GenP.W5_main_arg17 m ρ c),
       (h c _ (GenP.mem_uc main_arg18 (by decide))).trans (GenP.W5_main_arg18 m ρ c),
       (h c _ (GenP.mem_uc main_arg19 (by decide))).trans (GenP.W5_main_arg19 m ρ c)⟩)
    (run_all m ρ)

end Cert.KernelIdeal.RunValue

end
-- ==== Proof.LibPlainDot.lean ====
/-
  A plain matrix product on the extended reals, read at an entry.

  For dimension numbers that contract the left operand's second axis with the right operand's first and have no
  batch axis, the product of an [M, K] and a [K, N] matrix into the zero accumulator has, at row r and column c,
  the entry  sum over k < K of  lhs (r, k) * rhs (k, c).  The contraction position of the dimension numbers is a
  one-coordinate index; the sum over it is re-indexed through the bijection with that coordinate.  The two facts
  about the non-contracted coordinates (the left index keeps the row, the right index keeps the column) depend on
  the particular dimension numbers and are taken as hypotheses: for literal dimension numbers each is decided by
  unfolding the index map once.
-/
import Idealize.ShloMosaic.Lib.ValueIdx
import Idealize.ShloMosaic.PureOps.Ideal.Laws

noncomputable section

namespace Cert.LibPlainDot

open Idealize.ShloMosaic Idealize.ShloMosaic.ValueIdx

variable {M K N : ℕ} {φ₁ φ₂ : FTy}

/-- The sum over the one-coordinate contraction position is the sum over that coordinate, with the operands read at
    (row, k) and (k, column). -/
theorem contr_sum_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (lhs : FVec Ideal ⟨2, ![M, K]⟩ φ₁) (rhs : FVec Ideal ⟨2, ![K, N]⟩ φ₂) (r : Fin M) (c : Fin N) :
    (∑ q : d.contr.Idx, lhs (d.lhsIdx (ix2 r c) q) * rhs (d.rhsIdx (ix2 r c) q))
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact hr1 _ _)
  rw [el, er]

/-- A matrix product into the zero accumulator, at (r, c), is the sum over k of lhs (r, k) * rhs (k, c). -/
theorem matmul_zero_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) :=
  (Ideal.matmul_constant_zero_apply d prec lhs rhs (ix2 r c)).trans
    (contr_sum_ix2 d hr hs hlc hrc hl0 hr1 lhs rhs r c)

end Cert.LibPlainDot

end
-- ==== Proof.Spec.lean ====
/-
  The network's arithmetic on the extended reals, one entry at a time.

  A graph-convolution layer followed by batch normalisation (evaluation mode) and a rectifier computes, for node r
  and output channel c,
      max ( ( (sum_k agg(r,k) * Wl(k,c)) + bl(c) + (sum_k x(r,k) * Wr(k,c)) - mu(c) ) * ( g(c) * rsqrt (v(c) + eps) ) + b(c) , 0 )
  where agg is the mean of the neighbours' features.  The association is the one written: the two products are added
  to the bias from the left, the mean is subtracted, the result is scaled by the PRODUCT g * rsqrt(v + eps), and the
  shift is added last.  `sageElt` is that expression of one row of agg and x, one column of Wl and Wr, and the five
  channel parameters.  The output head computes, for node r,
      logistic ( (sum_k max ( (sum_k' h(r,k') * W1(k',k)) + b1(k) , 0 ) * W2(k,0)) + b2(0) ),
  `headElt`.  `layer` and `head` are the arrays these give over all 100000 nodes.  The epsilon and the zero are kept
  as the binary words both programs carry; neither is ever evaluated.
-/
import Idealize.ShloMosaic.Lib.ValueIdx
import Idealize.ShloMosaic.PureOps.Ideal

noncomputable section

namespace Cert.Sage

open Idealize.ShloMosaic Idealize.ShloMosaic.ValueIdx

/-- The batch-norm epsilon, as the binary word both programs carry. -/
abbrev epsW : EReal := Ideal.ofBits .f32 0x3727C5AC#32
/-- The rectifier's zero, as the binary word both programs carry. -/
abbrev zeroW : EReal := Ideal.ofBits .f32 0x00000000#32

/-- The word of 1.0 denotes the real number one: sign 0, biased exponent 127, zero fraction. -/
theorem oneW : Ideal.ofBits .f32 0x3F800000#32 = 1 := by
  simp [Ideal.ofBits, Ideal.ieee, -EReal.coe_mul]; norm_num

/-- One entry of a convolution layer with batch normalisation and rectifier, from one row of the aggregate and of the
    features, one column of each weight matrix, and the channel's bias, scale, shift, mean and variance. -/
def sageElt {A : ℕ} (aggRow xRow wlCol wrCol : Fin A → EReal) (bl g b mu v : EReal) : EReal :=
  max (((((∑ k : Fin A, aggRow k * wlCol k) + bl) + ∑ k : Fin A, xRow k * wrCol k) - mu) * (g * Ideal.rsqrt (v + epsW)) + b) zeroW

/-- One entry of the output head, from one row of the hidden features. -/
def headElt (hRow : Fin 64 → EReal) (w1 : Fin 64 → Fin 32 → EReal) (b1 : Fin 32 → EReal) (w2 : Fin 32 → EReal) (b2 : EReal) : EReal :=
  Ideal.logistic ((∑ k : Fin 32, max ((∑ k' : Fin 64, hRow k' * w1 k' k) + b1 k) zeroW * w2 k) + b2)

/-- The row of a matrix index. -/
abbrev row {R B : ℕ} (j : (⟨2, ![R, B]⟩ : Shape).Idx) : Fin R := ⟨(j 0).val, (j 0).isLt⟩
/-- The column of a matrix index. -/
abbrev col {R B : ℕ} (j : (⟨2, ![R, B]⟩ : Shape).Idx) : Fin B := ⟨(j 1).val, (j 1).isLt⟩

/-- A convolution layer with batch normalisation and rectifier over all nodes. -/
def layer {A B : ℕ} (agg x : (⟨2, ![100000, A]⟩ : Shape).Idx → EReal) (wl wr : (⟨2, ![A, B]⟩ : Shape).Idx → EReal)
    (bl g b mu v : (⟨1, ![B]⟩ : Shape).Idx → EReal) : (⟨2, ![100000, B]⟩ : Shape).Idx → EReal := fun j =>
  sageElt (fun k => agg (ix2 (row j) k)) (fun k => x (ix2 (row j) k)) (fun k => wl (ix2 k (col j))) (fun k => wr (ix2 k (col j)))
    (bl (ix1 (col j))) (g (ix1 (col j))) (b (ix1 (col j))) (mu (ix1 (col j))) (v (ix1 (col j)))

theorem layer_ix2 {A B : ℕ} (agg x : (⟨2, ![100000, A]⟩ : Shape).Idx → EReal) (wl wr : (⟨2, ![A, B]⟩ : Shape).Idx → EReal)
    (bl g b mu v : (⟨1, ![B]⟩ : Shape).Idx → EReal) (r : Fin 100000) (c : Fin B) :
    layer agg x wl wr bl g b mu v (ix2 r c)
      = sageElt (fun k => agg (ix2 r k)) (fun k => x (ix2 r k)) (fun k => wl (ix2 k c)) (fun k => wr (ix2 k c))
          (bl (ix1 c)) (g (ix1 c)) (b (ix1 c)) (mu (ix1 c)) (v (ix1 c)) := rfl

/-- The output head over all nodes. -/
def head (h : (⟨2, ![100000, 64]⟩ : Shape).Idx → EReal) (w1 : (⟨2, ![64, 32]⟩ : Shape).Idx → EReal)
    (b1 : (⟨1, ![32]⟩ : Shape).Idx → EReal) (w2 : (⟨2, ![32, 1]⟩ : Shape).Idx → EReal) (b2 : (⟨1, ![1]⟩ : Shape).Idx → EReal) :
    (⟨2, ![100000, 1]⟩ : Shape).Idx → EReal := fun j =>
  headElt (fun k' => h (ix2 (row j) k')) (fun k' k => w1 (ix2 k' k)) (fun k => b1 (ix1 k)) (fun k => w2 (ix2 k (0 : Fin 1))) (b2 (ix1 (0 : Fin 1)))

theorem head_ix2 (h : (⟨2, ![100000, 64]⟩ : Shape).Idx → EReal) (w1 : (⟨2, ![64, 32]⟩ : Shape).Idx → EReal)
    (b1 : (⟨1, ![32]⟩ : Shape).Idx → EReal) (w2 : (⟨2, ![32, 1]⟩ : Shape).Idx → EReal) (b2 : (⟨1, ![1]⟩ : Shape).Idx → EReal)
    (r : Fin 100000) (u : Fin 1) :
    head h w1 b1 w2 b2 (ix2 r u)
      = headElt (fun k' => h (ix2 r k')) (fun k' k => w1 (ix2 k' k)) (fun k => b1 (ix1 k)) (fun k => w2 (ix2 k (0 : Fin 1))) (b2 (ix1 (0 : Fin 1))) := rfl

end Cert.Sage

end
-- ==== Proof.KernelBody.lean ====
/-
  The two kernel bodies, read one entry at a time on the extended reals.

  Each body is one pure function of the blocks it loads.  A change of float format is the identity here, a cast to the
  same shape is the identity, a [1, n] row broadcast down the rows reads the row, and a matrix product into the zero
  accumulator is the plain sum over the contracted axis.  So the first body's entry (p, q) is `sageElt` of row p of
  its two feature blocks, column q of its two weight matrices and entry q of its five parameter rows; the second
  body computes the same expression on 64 input channels and feeds row p of it to the head, whose one entry is
  `headElt`.
-/
import proofs.«127177_j12850542150153_1_alg».proof.Proof.Gen.KernelIdeal.Skeleton
import proofs.«127177_j12850542150153_1_alg».proof.Proof.LibPlainDot
import proofs.«127177_j12850542150153_1_alg».proof.Proof.Spec
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Sage Cert.LibPlainDot

/-- The reciprocal square root of a vector, at an entry. -/
theorem rsqrt_apply {s : Shape} {φ : FTy} (a : FVec Ideal s φ) (i : s.Idx) : rsqrt a i = Ideal.rsqrt (a i) := rfl
/-- The logistic function of a vector, at an entry. -/
theorem logistic_apply {s : Shape} {φ : FTy} (a : FVec Ideal s φ) (i : s.Idx) : logistic a i = Ideal.logistic (a i) := rfl

/-! ## The four matrix products: each entry is the sum over the contracted axis -/

theorem mm_128_64 {φ₁ φ₂ : FTy} (lhs : FVec Ideal S5000x128 φ₁) (rhs : FVec Ideal S128x64 φ₂) (p : Fin 5000) (q : Fin 64) :
    FloatOps.matmul dot_S5000x128_S128x64_S5000x64_1_0_0_1_n_n none lhs rhs (constant S5000x64 .f32 0x00000000#32) (ix2 p q)
      = ∑ k : Fin 128, lhs (ix2 p k) * rhs (ix2 k q) :=
  matmul_zero_ix2 dot_S5000x128_S128x64_S5000x64_1_0_0_1_n_n rfl rfl rfl rfl
    (fun j k => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun j k => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    none lhs rhs p q

theorem mm_64_64 {φ₁ φ₂ : FTy} (lhs : FVec Ideal S5000x64 φ₁) (rhs : FVec Ideal S64x64 φ₂) (p : Fin 5000) (q : Fin 64) :
    FloatOps.matmul dot_S5000x64_S64x64_S5000x64_1_0_0_1_n_n none lhs rhs (constant S5000x64 .f32 0x00000000#32) (ix2 p q)
      = ∑ k : Fin 64, lhs (ix2 p k) * rhs (ix2 k q) :=
  matmul_zero_ix2 dot_S5000x64_S64x64_S5000x64_1_0_0_1_n_n rfl rfl rfl rfl
    (fun j k => by
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl)
    (fun j k => by
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)
    none lhs rhs p q

theorem mm_64_32 {φ₁ φ₂ : FTy} (lhs : FVec Ideal S5000x64 φ₁) (rhs : FVec Ideal S64x32 φ₂) (p : Fin 5000) (q : Fin 32) :
    FloatOps.matmul dot_S5000x64_S64x32_S5000x32_1_0_0_1_n_n none lhs rhs (constant S5000x32 .f32 0x00000000#32) (ix2 p q)
      = ∑ k : Fin 64, lhs (ix2 p k) * rhs (ix2 k q) :=
  matmul_zero_ix2 dot_S5000x64_S64x32_S5000x32_1_0_0_1_n_n rfl rfl rfl rfl
    (fun j k => by
      unfold DotDims.lhsIdx
      rw [dif_neg (show ¬(0 : Fin S5000x64.rank) ∈ dot_S5000x64_S64x32_S5000x32_1_0_0_1_n_n.lhsBatch by decide),
        dif_pos (show (0 : Fin S5000x64.rank) ∈ dot_S5000x64_S64x32_S5000x32_1_0_0_1_n_n.lhsNonContracting by decide)]
      rfl)
    (fun j k => by
      unfold DotDims.rhsIdx
      rw [dif_neg (show ¬(1 : Fin S64x32.rank) ∈ dot_S5000x64_S64x32_S5000x32_1_0_0_1_n_n.rhsBatch by decide),
        dif_pos (show (1 : Fin S64x32.rank) ∈ dot_S5000x64_S64x32_S5000x32_1_0_0_1_n_n.rhsNonContracting by decide)]
      rfl)
    none lhs rhs p q

theorem mm_32_1 {φ₁ φ₂ : FTy} (lhs : FVec Ideal S5000x32 φ₁) (rhs : FVec Ideal S32x1 φ₂) (p : Fin 5000) (q : Fin 1) :
    FloatOps.matmul dot_S5000x32_S32x1_S5000x1_1_0_0_1_n_n none lhs rhs (constant S5000x1 .f32 0x00000000#32) (ix2 p q)
      = ∑ k : Fin 32, lhs (ix2 p k) * rhs (ix2 k q) :=
  matmul_zero_ix2 dot_S5000x32_S32x1_S5000x1_1_0_0_1_n_n rfl rfl rfl rfl
    (fun j k => by
      unfold DotDims.lhsIdx
      rw [dif_neg (show ¬(0 : Fin S5000x32.rank) ∈ dot_S5000x32_S32x1_S5000x1_1_0_0_1_n_n.lhsBatch by decide),
        dif_pos (show (0 : Fin S5000x32.rank) ∈ dot_S5000x32_S32x1_S5000x1_1_0_0_1_n_n.lhsNonContracting by decide)]
      rfl)
    (fun j k => by
      unfold DotDims.rhsIdx
      rw [dif_neg (show ¬(1 : Fin S32x1.rank) ∈ dot_S5000x32_S32x1_S5000x1_1_0_0_1_n_n.rhsBatch by decide),
        dif_pos (show (1 : Fin S32x1.rank) ∈ dot_S5000x32_S32x1_S5000x1_1_0_0_1_n_n.rhsNonContracting by decide)]
      rfl)
    none lhs rhs p q

/-! ## The bodies at an entry -/

/-- The layer's body at row p and channel q of its block: the two products are sums over the 128 input channels, the
    five channel parameters are read from their one row, and the association is the one `sageElt` writes. -/
theorem layer0_entry (x0 x1 : Vec Ideal S5000x128 .f32) (wl wr : Vec Ideal S128x64 .f32) (bl g v mu b : Vec Ideal S1x64 .f32)
    (p : Fin 5000) (q : Fin 64) :
    k0_pay1 (F := Ideal) x0 x1 wl wr bl g v mu b (ix2 p q)
      = sageElt (fun k => x0 (ix2 p k)) (fun k => x1 (ix2 p k)) (fun k => wl (ix2 k q)) (fun k => wr (ix2 k q))
          (bl (ix2 (0 : Fin 1) q)) (g (ix2 (0 : Fin 1) q)) (b (ix2 (0 : Fin 1) q)) (mu (ix2 (0 : Fin 1) q)) (v (ix2 (0 : Fin 1) q)) := by
  unfold k0_pay1 sageElt
  simp only [maximumf_apply, addf_apply, subf_apply, mulf_apply, rsqrt_apply, broadcast_apply, truncf_apply, shapeCast_self,
    mm_128_64, broadcastTo_1b_ab_apply]
  rfl

/-- The layer's body at row p and channel q of its block: the two products are sums over the 64 input channels, the
    five channel parameters are read from their one row, and the association is the one `sageElt` writes. -/
theorem layer1_entry (x0 x1 : Vec Ideal S5000x64 .f32) (wl wr : Vec Ideal S64x64 .f32) (bl g v mu b : Vec Ideal S1x64 .f32)
    (p : Fin 5000) (q : Fin 64) :
    k1_pay2 (F := Ideal) x0 x1 wl wr bl g v mu b (ix2 p q)
      = sageElt (fun k => x0 (ix2 p k)) (fun k => x1 (ix2 p k)) (fun k => wl (ix2 k q)) (fun k => wr (ix2 k q))
          (bl (ix2 (0 : Fin 1) q)) (g (ix2 (0 : Fin 1) q)) (b (ix2 (0 : Fin 1) q)) (mu (ix2 (0 : Fin 1) q)) (v (ix2 (0 : Fin 1) q)) := by
  unfold k1_pay2 sageElt
  simp only [maximumf_apply, addf_apply, subf_apply, mulf_apply, rsqrt_apply, broadcast_apply, truncf_apply, shapeCast_self,
    mm_64_64, broadcastTo_1b_ab_apply]
  rfl

/-- The head at row p of its block, from the block of hidden features: the hidden layer of 32 units with its rectifier,
    the one output unit, and the logistic function. -/
theorem head_entry (h : FVec Ideal S5000x64 .f32) (w1 : Vec Ideal S64x32 .f32) (b1 : Vec Ideal S1x32 .f32)
    (w2 : Vec Ideal S32x1 .f32) (b2 : Vec Ideal S1x1 .f32) (p : Fin 5000) (u : Fin 1) :
    k1_pay1 (F := Ideal) h w1 b1 w2 b2 (ix2 p u)
      = headElt (fun k' => h (ix2 p k')) (fun k' k => w1 (ix2 k' k)) (fun k => b1 (ix2 (0 : Fin 1) k))
          (fun k => w2 (ix2 k (0 : Fin 1))) (b2 (ix2 (0 : Fin 1) (0 : Fin 1))) := by
  have hu : u = (0 : Fin 1) := Subsingleton.elim _ _
  subst hu
  unfold k1_pay1 headElt
  simp only [logistic_apply, maximumf_apply, addf_apply, mulf_apply, broadcast_apply, truncf_apply, shapeCast_self,
    mm_64_32, mm_32_1, broadcastTo_1b_ab_apply]
  rfl

end Cert.KernelIdeal.Body

end
-- ==== Proof.KernelBlocks0.lean ====
/-
  The first pallas_call's output array as one function of the arrays it finds.

  The grid has 20 points; point t stages rows 5000 t … 5000 t + 4999 of the aggregate and of the features, the whole of
  each weight matrix and parameter row, and writes back rows 5000 t … 5000 t + 4999 of the output.  Entry (p, q) of what
  point t writes back is therefore `sageElt` of row 5000 t + p of the two feature arrays, column q of the two weight
  matrices and entry q of the five parameter rows: the same expression at every point, so the write-backs are the
  blocks of ONE array, and the 20 blocks tile the 100000 rows.  Everything is stated for ANY contents `V` of the
  buffers when the call is entered.
-/
import proofs.«127177_j12850542150153_1_alg».proof.Proof.FramePKernelIdeal
import proofs.«127177_j12850542150153_1_alg».proof.Proof.KernelBody

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Sage Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-! ## The windows' index maps over the 20 grid points -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-! ## Each input block, read where the array holds it -/

theorem read0_0 (c : Dev nD) (t : Fin cfg0.N) (p : Fin 5000) (k : Fin 128) (r : Fin 100000) (hr : r.val = t.val * 5000 + p.val) :
    iblk0 V c 0 t (ix2 p k) = V c main_v24 (ix2 r k) := by
  show V c main_v24 (((cfg0.win 0).blk t).view.emb (ix2 p k)) = V c main_v24 (ix2 r k)
  obtain ⟨e0, e1⟩ := idx0_0 t
  refine congrArg (V c main_v24) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

theorem read0_1 (c : Dev nD) (t : Fin cfg0.N) (p : Fin 5000) (k : Fin 128) (r : Fin 100000) (hr : r.val = t.val * 5000 + p.val) :
    iblk0 V c 1 t (ix2 p k) = V c main_arg0 (ix2 r k) := by
  show V c main_arg0 (((cfg0.win 1).blk t).view.emb (ix2 p k)) = V c main_arg0 (ix2 r k)
  obtain ⟨e0, e1⟩ := idx0_1 t
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

theorem read0_2 (c : Dev nD) (t : Fin cfg0.N) (a : Fin 128) (b : Fin 64) :
    iblk0 V c 2 t (ix2 a b) = V c main_arg2 (ix2 a b) := by
  show V c main_arg2 (((cfg0.win 2).blk t).view.emb (ix2 a b)) = V c main_arg2 (ix2 a b)
  obtain ⟨e0, e1⟩ := idx0_2 t
  refine congrArg (V c main_arg2) (funext fun x => Fin.ext ?_)
  match x with
  | ⟨0, _⟩ => show win0_2.index t (0 : Fin 2) * 128 + 1 * a.val = a.val; omega
  | ⟨1, _⟩ => show win0_2.index t (1 : Fin 2) * 64 + 1 * b.val = b.val; omega

theorem read0_3 (c : Dev nD) (t : Fin cfg0.N) (a : Fin 1) (b : Fin 64) :
    iblk0 V c 3 t (ix2 a b) = V c main_v25 (ix2 a b) := by
  show V c main_v25 (((cfg0.win 3).blk t).view.emb (ix2 a b)) = V c main_v25 (ix2 a b)
  obtain ⟨e0, e1⟩ := idx0_3 t
  refine congrArg (V c main_v25) (funext fun x => Fin.ext ?_)
  match x with
  | ⟨0, _⟩ => show win0_3.index t (0 : Fin 2) * 1 + 1 * a.val = a.val; omega
  | ⟨1, _⟩ => show win0_3.index t (1 : Fin 2) * 64 + 1 * b.val = b.val; omega

theorem read0_4 (c : Dev nD) (t : Fin cfg0.N) (a : Fin 128) (b : Fin 64) :
    iblk0 V c 4 t (ix2 a b) = V c main_arg4 (ix2 a b) := by
  show V c main_arg4 (((cfg0.win 4).blk t).view.emb (ix2 a b)) = V c main_arg4 (ix2 a b)
  obtain ⟨e0, e1⟩ := idx0_4 t
  refine congrArg (V c main_arg4) (funext fun x => Fin.ext ?_)
  match x with
  | ⟨0, _⟩ => show win0_4.index t (0 : Fin 2) * 128 + 1 * a.val = a.val; omega
  | ⟨1, _⟩ => show win0_4.index t (1 : Fin 2) * 64 + 1 * b.val = b.val; omega

theorem read0_5 (c : Dev nD) (t : Fin cfg0.N) (a : Fin 1) (b : Fin 64) :
    iblk0 V c 5 t (ix2 a b) = V c main_v26 (ix2 a b) := by
  show V c main_v26 (((cfg0.win 5).blk t).view.emb (ix2 a b)) = V c main_v26 (ix2 a b)
  obtain ⟨e0, e1⟩ := idx0_5 t
  refine congrArg (V c main_v26) (funext fun x => Fin.ext ?_)
  match x with
  | ⟨0, _⟩ => show win0_5.index t (0 : Fin 2) * 1 + 1 * a.val = a.val; omega
  | ⟨1, _⟩ => show win0_5.index t (1 : Fin 2) * 64 + 1 * b.val = b.val; omega

theorem read0_6 (c : Dev nD) (t : Fin cfg0.N) (a : Fin 1) (b : Fin 64) :
    iblk0 V c 6 t (ix2 a b) = V c main_v27 (ix2 a b) := by
  show V c main_v27 (((cfg0.win 6).blk t).view.emb (ix2 a b)) = V c main_v27 (ix2 a b)
  obtain ⟨e0, e1⟩ := idx0_6 t
  refine congrArg (V c main_v27) (funext fun x => Fin.ext ?_)
  match x with
  | ⟨0, _⟩ => show win0_6.index t (0 : Fin 2) * 1 + 1 * a.val = a.val; omega
  | ⟨1, _⟩ => show win0_6.index t (1 : Fin 2) * 64 + 1 * b.val = b.val; omega

theorem read0_7 (c : Dev nD) (t : Fin cfg0.N) (a : Fin 1) (b : Fin 64) :
    iblk0 V c 7 t (ix2 a b) = V c main_v28 (ix2 a b) := by
  show V c main_v28 (((cfg0.win 7).blk t).view.emb (ix2 a b)) = V c main_v28 (ix2 a b)
  obtain ⟨e0, e1⟩ := idx0_7 t
  refine congrArg (V c main_v28) (funext fun x => Fin.ext ?_)
  match x with
  | ⟨0, _⟩ => show win0_7.index t (0 : Fin 2) * 1 + 1 * a.val = a.val; omega
  | ⟨1, _⟩ => show win0_7.index t (1 : Fin 2) * 64 + 1 * b.val = b.val; omega

theorem read0_8 (c : Dev nD) (t : Fin cfg0.N) (a : Fin 1) (b : Fin 64) :
    iblk0 V c 8 t (ix2 a b) = V c main_v29 (ix2 a b) := by
  show V c main_v29 (((cfg0.win 8).blk t).view.emb (ix2 a b)) = V c main_v29 (ix2 a b)
  obtain ⟨e0, e1⟩ := idx0_8 t
  refine congrArg (V c main_v29) (funext fun x => Fin.ext ?_)
  match x with
  | ⟨0, _⟩ => show win0_8.index t (0 : Fin 2) * 1 + 1 * a.val = a.val; omega
  | ⟨1, _⟩ => show win0_8.index t (1 : Fin 2) * 64 + 1 * b.val = b.val; omega

/-! ## The output array -/

/-- The array the call leaves: `sageElt` of the entered arrays, entry by entry. -/
def out (c : Dev nD) : S100000x64.Idx → EReal := fun i =>
  sageElt (fun k : Fin 128 => V c main_v24 (ix2 (row i) k)) (fun k : Fin 128 => V c main_arg0 (ix2 (row i) k))
    (fun k : Fin 128 => V c main_arg2 (ix2 k (col i))) (fun k : Fin 128 => V c main_arg4 (ix2 k (col i)))
    (V c main_v25 (ix2 (0 : Fin 1) (col i))) (V c main_v26 (ix2 (0 : Fin 1) (col i))) (V c main_v27 (ix2 (0 : Fin 1) (col i)))
    (V c main_v28 (ix2 (0 : Fin 1) (col i))) (V c main_v29 (ix2 (0 : Fin 1) (col i)))

/-- What point t writes back is block t of `out`. -/
theorem flushed_eq (c : Dev nD) (t : Fin cfg0.N) :
    (dat0 V c).flushed 9 t = ((cfg0.win 9).blk t).view.read (Elt Ideal) (out V c) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  have hN : t.val < 20 := by have := t.isLt; have h20 : cfg0.N = 20 := GenP.N_0; omega
  obtain ⟨e0, e1⟩ := idx0_9 t
  have hemb : ((cfg0.win 9).blk t).view.emb (ix2 p q) = (ix2 (⟨t.val * 5000 + p.val, by omega⟩ : Fin 100000) q : S100000x64.Idx) :=
    funext fun a => Fin.ext (by
      match a with
      | ⟨0, _⟩ => show win0_9.index t (0 : Fin 2) * 5000 + 1 * p.val = t.val * 5000 + p.val; omega
      | ⟨1, _⟩ => show win0_9.index t (1 : Fin 2) * 64 + 1 * q.val = q.val; omega)
  show k0_pay1 (F := Ideal) (iblk0 V c 0 t) (iblk0 V c 1 t) (iblk0 V c 2 t) (iblk0 V c 4 t) (iblk0 V c 3 t) (iblk0 V c 5 t)
      (iblk0 V c 8 t) (iblk0 V c 7 t) (iblk0 V c 6 t) (ix2 p q) = out V c (((cfg0.win 9).blk t).view.emb (ix2 p q))
  rw [hemb]
  refine (layer0_entry (iblk0 V c 0 t) (iblk0 V c 1 t) (iblk0 V c 2 t) (iblk0 V c 4 t) (iblk0 V c 3 t) (iblk0 V c 5 t)
      (iblk0 V c 8 t) (iblk0 V c 7 t) (iblk0 V c 6 t) p q).trans ?_
  show _ = sageElt (fun k : Fin 128 => V c main_v24 (ix2 (⟨t.val * 5000 + p.val, by omega⟩ : Fin 100000) k))
      (fun k : Fin 128 => V c main_arg0 (ix2 (⟨t.val * 5000 + p.val, by omega⟩ : Fin 100000) k))
      (fun k : Fin 128 => V c main_arg2 (ix2 k q)) (fun k : Fin 128 => V c main_arg4 (ix2 k q))
      (V c main_v25 (ix2 (0 : Fin 1) q)) (V c main_v26 (ix2 (0 : Fin 1) q)) (V c main_v27 (ix2 (0 : Fin 1) q))
      (V c main_v28 (ix2 (0 : Fin 1) q)) (V c main_v29 (ix2 (0 : Fin 1) q))
  simp only [read0_0 V c t p _ ⟨t.val * 5000 + p.val, by omega⟩ rfl, read0_1 V c t p _ ⟨t.val * 5000 + p.val, by omega⟩ rfl,
    read0_2, read0_3, read0_4, read0_5, read0_6, read0_7, read0_8]

/-- An index of the output array is in point t's block iff each coordinate is in the block's range. -/
theorem mem_blk (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v30).slice (win0_9.rect t)).set ↔ _
  rw [View.set_slice_whole, Rect.mem_set_unit]
  exact Iff.rfl

/-- The 20 blocks tile the array: row r is in block r / 5000. -/
theorem cover (i : S100000x64.Idx) : ∃ t : Fin cfg0.N, (cfg0.win 9).flush t = true ∧ i ∈ ((cfg0.win 9).blk t).view.set := by
  have hN : grid0.N = 20 := GenP.N_0
  have hi0 : (i 0).val < 100000 := (i 0).isLt
  have hi1 : (i 1).val < 64 := (i 1).isLt
  refine ⟨⟨(i 0).val / 5000, by show (i 0).val / 5000 < grid0.N; omega⟩, flush0_9 _, ?_⟩
  rw [mem_blk]
  obtain ⟨e0, e1⟩ := idx0_9 ⟨(i 0).val / 5000, by show (i 0).val / 5000 < grid0.N; omega⟩
  intro a
  match a with
  | ⟨0, _⟩ => show win0_9.index _ (0 : Fin 2) * 5000 ≤ (i 0).val ∧ (i 0).val < win0_9.index _ (0 : Fin 2) * 5000 + 5000; rw [e0]; show (i 0).val / 5000 * 5000 ≤ (i 0).val ∧ (i 0).val < (i 0).val / 5000 * 5000 + 5000; omega
  | ⟨1, _⟩ => show win0_9.index _ (1 : Fin 2) * 64 ≤ (i 1).val ∧ (i 1).val < win0_9.index _ (1 : Fin 2) * 64 + 64; rw [e1]; omega

/-- THE ARRAY after the call: `out` of the arrays the call found. -/
theorem final (c : Dev nD) : (dat0 V c).arrAt 9 cfg0.N = out V c :=
  (dat0 V c).arrAt_eq_of_cover 9 (out V c) (fun t _ => flushed_eq V c t) cover

end Cert.KernelIdeal.Blocks0

end
-- ==== Proof.KernelHost.lean ====
/-
  The buffer contents at the segment boundaries of the idealized kernel program, as functions of the launch memory.

  Before the first pallas_call the host operations compute the in-degrees, their clamped reciprocals, the gathered and
  scatter-added features scaled by the reciprocal (the mean aggregate), and lay the five parameter vectors of the
  first layer out as rows.  These are the very operations the reference performs on the same arguments, so each
  buffer is stated as the reference's stage of the launch arguments.  Between the two pallas_calls the host operations
  gather and scatter-add the first hidden array and scale it (`aggOf`: one function of the hidden array and the edge
  list, never opened) and lay the remaining parameter vectors out as rows.  No host operation and no pallas_call
  writes an argument.
-/
import proofs.«127177_j12850542150153_1_alg».proof.Proof.FramePKernelIdeal
import proofs.«127177_j12850542150153_1_alg».proof.Proof.KernelBlocks0
import proofs.«127177_j12850542150153_1_alg».proof.Proof.Gen.ReferenceIdeal.Read
import Idealize.ShloMosaic.Lib.StableHlo.Run

set_option maxRecDepth 16384

noncomputable section

namespace Cert.KernelIdeal.HostValue

open Idealize.ShloMosaic Idealize.ShloMosaic.TcCoe Idealize.ShloMosaic.StableHlo Idealize.SL.Sem
open Cert.KernelIdeal Cert.KernelIdeal.Gen Cert.KernelIdeal.GenP

variable (m : (ℓ : Loc nD τ sig) → Buf (Elt Ideal) ℓ) (ρ : Dev nD → PrngReg)

/-- The mean aggregate of a hidden array over the edge list: gather the rows at the (wrapped) source nodes, scatter-add
    them at the target nodes into zeros, scale each row by the clamped reciprocal in-degree.  Kept as one function. -/
def aggOf (h : FVec Ideal Cert.ReferenceIdeal.S100000x64 .f32) (x1 : IVec Cert.ReferenceIdeal.S2x1600000 32) :
    FVec Ideal Cert.ReferenceIdeal.S100000x64 .f32 :=
  mulf (F := Ideal)
    (Host.scatterAdd (F := Ideal) Cert.ReferenceIdeal.scatter_S100000x64_S1600000x1_S1600000x64_1_0_0_1
      (Cert.ReferenceIdeal.Read.val_main_v52 (F := Ideal)) (Cert.ReferenceIdeal.Read.val_main_v53 (F := Ideal) x1)
      (Host.gather Cert.ReferenceIdeal.gather_S100000x64_S1600000x1_S1600000x64_1_0_n_n_0_1_164 h
        (Cert.ReferenceIdeal.Read.val_main_v50 (F := Ideal) x1)))
    (Cert.ReferenceIdeal.Read.val_main_v56 (F := Ideal) x1)

/-! ## After the first stretch of host operations -/

/-- The mean aggregate of the input features is the reference's stage of the same arguments. -/
theorem w1_v24 (c : Dev nD) : W1 m ρ c (Proc.devRef .tc main_v24)
    = Cert.ReferenceIdeal.Read.val_main_v24 (F := Ideal) (m ((c : Thread nD τ).loc main_arg0)) (m ((c : Thread nD τ).loc main_arg1)) := by
  show StableHlo.after hostOps0 (W0 m ρ c) (Proc.devRef .tc main_v24) = _
  after_results_simp
  rfl

theorem w1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl
theorem w1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl
theorem w1_v11 (c : Dev nD) : W1 m ρ c (Proc.devRef .tc main_v11) = Cert.ReferenceIdeal.Read.val_main_v11 (F := Ideal) (m ((c : Thread nD τ).loc main_arg1)) := by
  show StableHlo.after hostOps0 (W0 m ρ c) (Proc.devRef .tc main_v11) = _
  after_results_simp
  rfl

theorem w1_v25 (c : Dev nD) : W1 m ρ c (Proc.devRef .tc main_v25) = shapeCast S1x64 (m ((c : Thread nD τ).loc main_arg3)) shapeCasts_S64_S1x64 := by
  show StableHlo.after hostOps0 (W0 m ρ c) (Proc.devRef .tc main_v25) = _
  after_results_simp
  rfl
theorem w1_v26 (c : Dev nD) : W1 m ρ c (Proc.devRef .tc main_v26) = shapeCast S1x64 (m ((c : Thread nD τ).loc main_arg5)) shapeCasts_S64_S1x64 := by
  show StableHlo.after hostOps0 (W0 m ρ c) (Proc.devRef .tc main_v26) = _
  after_results_simp
  rfl
theorem w1_v27 (c : Dev nD) : W1 m ρ c (Proc.devRef .tc main_v27) = shapeCast S1x64 (m ((c : Thread nD τ).loc main_arg6)) shapeCasts_S64_S1x64 := by
  show StableHlo.after hostOps0 (W0 m ρ c) (Proc.devRef .tc main_v27) = _
  after_results_simp
  rfl
theorem w1_v28 (c : Dev nD) : W1 m ρ c (Proc.devRef .tc main_v28) = shapeCast S1x64 (m ((c : Thread nD τ).loc main_arg7)) shapeCasts_S64_S1x64 := by
  show StableHlo.after hostOps0 (W0 m ρ c) (Proc.devRef .tc main_v28) = _
  after_results_simp
  rfl
theorem w1_v29 (c : Dev nD) : W1 m ρ c (Proc.devRef .tc main_v29) = shapeCast S1x64 (m ((c : Thread nD τ).loc main_arg8)) shapeCasts_S64_S1x64 := by
  show StableHlo.after hostOps0 (W0 m ρ c) (Proc.devRef .tc main_v29) = _
  after_results_simp
  rfl

theorem w1_arg0 (c : Dev nD) : W1 m ρ c (Proc.devRef .tc main_arg0) = m ((c : Thread nD τ).loc main_arg0) := by
  show StableHlo.after hostOps0 (W0 m ρ c) (Proc.devRef .tc main_arg0) = _
  after_results_simp
theorem w1_arg2 (c : Dev nD) : W1 m ρ c (Proc.devRef .tc main_arg2) = m ((c : Thread nD τ).loc main_arg2) := by
  show StableHlo.after hostOps0 (W0 m ρ c) (Proc.devRef .tc main_arg2) = _
  after_results_simp
theorem w1_arg4 (c : Dev nD) : W1 m ρ c (Proc.devRef .tc main_arg4) = m ((c : Thread nD τ).loc main_arg4) := by
  show StableHlo.after hostOps0 (W0 m ρ c) (Proc.devRef .tc main_arg4) = _
  after_results_simp
theorem w1_arg9 (c : Dev nD) : W1 m ρ c (Proc.devRef .tc main_arg9) = m ((c : Thread nD τ).loc main_arg9) := by
  show StableHlo.after hostOps0 (W0 m ρ c) (Proc.devRef .tc main_arg9) = _
  after_results_simp
theorem w1_arg10 (c : Dev nD) : W1 m ρ c (Proc.devRef .tc main_arg10) = m ((c : Thread nD τ).loc main_arg10) := by
  show StableHlo.after hostOps0 (W0 m ρ c) (Proc.devRef .tc main_arg10) = _
  after_results_simp
theorem w1_arg11 (c : Dev nD) : W1 m ρ c (Proc.devRef .tc main_arg11) = m ((c : Thread nD τ).loc main_arg11) := by
  show StableHlo.after hostOps0 (W0 m ρ c) (Proc.devRef .tc main_arg11) = _
  after_results_simp
theorem w1_arg12 (c : Dev nD) : W1 m ρ c (Proc.devRef .tc main_arg12) = m ((c : Thread nD τ).loc main_arg12) := by
  show StableHlo.after hostOps0 (W0 m ρ c) (Proc.devRef .tc main_arg12) = _
  after_results_simp
theorem w1_arg13 (c : Dev nD) : W1 m ρ c (Proc.devRef .tc main_arg13) = m ((c : Thread nD τ).loc main_arg13) := by
  show StableHlo.after hostOps0 (W0 m ρ c) (Proc.devRef .tc main_arg13) = _
  after_results_simp
theorem w1_arg14 (c : Dev nD) : W1 m ρ c (Proc.devRef .tc main_arg14) = m ((c : Thread nD τ).loc main_arg14) := by
  show StableHlo.after hostOps0 (W0 m ρ c) (Proc.devRef .tc main_arg14) = _
  after_results_simp
theorem w1_arg15 (c : Dev nD) : W1 m ρ c (Proc.devRef .tc main_arg15) = m ((c : Thread nD τ).loc main_arg15) := by
  show StableHlo.after hostOps0 (W0 m ρ c) (Proc.devRef .tc main_arg15) = _
  after_results_simp
theorem w1_arg16 (c : Dev nD) : W1 m ρ c (Proc.devRef .tc main_arg16) = m ((c : Thread nD τ).loc main_arg16) := by
  show StableHlo.after hostOps0 (W0 m ρ c) (Proc.devRef .tc main_arg16) = _
  after_results_simp
theorem w1_arg17 (c : Dev nD) : W1 m ρ c (Proc.devRef .tc main_arg17) = m ((c : Thread nD τ).loc main_arg17) := by
  show StableHlo.after hostOps0 (W0 m ρ c) (Proc.devRef .tc main_arg17) = _
  after_results_simp
theorem w1_arg18 (c : Dev nD) : W1 m ρ c (Proc.devRef .tc main_arg18) = m ((c : Thread nD τ).loc main_arg18) := by
  show StableHlo.after hostOps0 (W0 m ρ c) (Proc.devRef .tc main_arg18) = _
  after_results_simp
theorem w1_arg19 (c : Dev nD) : W1 m ρ c (Proc.devRef .tc main_arg19) = m ((c : Thread nD τ).loc main_arg19) := by
  show StableHlo.after hostOps0 (W0 m ρ c) (Proc.devRef .tc main_arg19) = _
  after_results_simp

/-! ## Across the first pallas_call: its output array is new, every other buffer is as entered -/

theorem w2_v1 (c : Dev nD) : W2 m ρ c (Proc.devRef .tc main_v1) = W1 m ρ c (Proc.devRef .tc main_v1) :=
  W2_of_ne m ρ c main_v1 (by decide)
theorem w2_v3 (c : Dev nD) : W2 m ρ c (Proc.devRef .tc main_v3) = W1 m ρ c (Proc.devRef .tc main_v3) :=
  W2_of_ne m ρ c main_v3 (by decide)
theorem w2_v11 (c : Dev nD) : W2 m ρ c (Proc.devRef .tc main_v11) = W1 m ρ c (Proc.devRef .tc main_v11) :=
  W2_of_ne m ρ c main_v11 (by decide)
theorem w2_arg9 (c : Dev nD) : W2 m ρ c (Proc.devRef .tc main_arg9) = W1 m ρ c (Proc.devRef .tc main_arg9) :=
  W2_of_ne m ρ c main_arg9 (by decide)
theorem w2_arg10 (c : Dev nD) : W2 m ρ c (Proc.devRef .tc main_arg10) = W1 m ρ c (Proc.devRef .tc main_arg10) :=
  W2_of_ne m ρ c main_arg10 (by decide)
theorem w2_arg11 (c : Dev nD) : W2 m ρ c (Proc.devRef .tc main_arg11) = W1 m ρ c (Proc.devRef .tc main_arg11) :=
  W2_of_ne m ρ c main_arg11 (by decide)
theorem w2_arg12 (c : Dev nD) : W2 m ρ c (Proc.devRef .tc main_arg12) = W1 m ρ c (Proc.devRef .tc main_arg12) :=
  W2_of_ne m ρ c main_arg12 (by decide)
theorem w2_arg13 (c : Dev nD) : W2 m ρ c (Proc.devRef .tc main_arg13) = W1 m ρ c (Proc.devRef .tc main_arg13) :=
  W2_of_ne m ρ c main_arg13 (by decide)
theorem w2_arg14 (c : Dev nD) : W2 m ρ c (Proc.devRef .tc main_arg14) = W1 m ρ c (Proc.devRef .tc main_arg14) :=
  W2_of_ne m ρ c main_arg14 (by decide)
theorem w2_arg15 (c : Dev nD) : W2 m ρ c (Proc.devRef .tc main_arg15) = W1 m ρ c (Proc.devRef .tc main_arg15) :=
  W2_of_ne m ρ c main_arg15 (by decide)
theorem w2_arg16 (c : Dev nD) : W2 m ρ c (Proc.devRef .tc main_arg16) = W1 m ρ c (Proc.devRef .tc main_arg16) :=
  W2_of_ne m ρ c main_arg16 (by decide)
theorem w2_arg17 (c : Dev nD) : W2 m ρ c (Proc.devRef .tc main_arg17) = W1 m ρ c (Proc.devRef .tc main_arg17) :=
  W2_of_ne m ρ c main_arg17 (by decide)
theorem w2_arg18 (c : Dev nD) : W2 m ρ c (Proc.devRef .tc main_arg18) = W1 m ρ c (Proc.devRef .tc main_arg18) :=
  W2_of_ne m ρ c main_arg18 (by decide)
theorem w2_arg19 (c : Dev nD) : W2 m ρ c (Proc.devRef .tc main_arg19) = W1 m ρ c (Proc.devRef .tc main_arg19) :=
  W2_of_ne m ρ c main_arg19 (by decide)

theorem w2_v30 (c : Dev nD) : W2 m ρ c (Proc.devRef .tc main_v30) = Blocks0.out (V1 m ρ) c :=
  (W2_arr m ρ c 9).trans (Blocks0.final (V1 m ρ) c)

/-! ## After the second stretch of host operations -/

/-- The mean aggregate of the first hidden array. -/
theorem w3_v43 (c : Dev nD) : W3 m ρ c (Proc.devRef .tc main_v43)
    = aggOf (W2 m ρ c (Proc.devRef .tc main_v30)) (m ((c : Thread nD τ).loc main_arg1)) := by
  show StableHlo.after hostOps1 (W2 m ρ c) (Proc.devRef .tc main_v43) = _
  after_results_simp
  rw [w2_v1, w2_v3, w2_v11, w1_v1, w1_v3, w1_v11]
  rfl

theorem w3_v44 (c : Dev nD) : W3 m ρ c (Proc.devRef .tc main_v44) = shapeCast S1x64 (m ((c : Thread nD τ).loc main_arg10)) shapeCasts_S64_S1x64 := by
  show StableHlo.after hostOps1 (W2 m ρ c) (Proc.devRef .tc main_v44) = _
  after_results_simp
  rw [w2_arg10, w1_arg10]
  rfl
theorem w3_v45 (c : Dev nD) : W3 m ρ c (Proc.devRef .tc main_v45) = shapeCast S1x64 (m ((c : Thread nD τ).loc main_arg12)) shapeCasts_S64_S1x64 := by
  show StableHlo.after hostOps1 (W2 m ρ c) (Proc.devRef .tc main_v45) = _
  after_results_simp
  rw [w2_arg12, w1_arg12]
  rfl
theorem w3_v46 (c : Dev nD) : W3 m ρ c (Proc.devRef .tc main_v46) = shapeCast S1x64 (m ((c : Thread nD τ).loc main_arg13)) shapeCasts_S64_S1x64 := by
  show StableHlo.after hostOps1 (W2 m ρ c) (Proc.devRef .tc main_v46) = _
  after_results_simp
  rw [w2_arg13, w1_arg13]
  rfl
theorem w3_v47 (c : Dev nD) : W3 m ρ c (Proc.devRef .tc main_v47) = shapeCast S1x64 (m ((c : Thread nD τ).loc main_arg14)) shapeCasts_S64_S1x64 := by
  show StableHlo.after hostOps1 (W2 m ρ c) (Proc.devRef .tc main_v47) = _
  after_results_simp
  rw [w2_arg14, w1_arg14]
  rfl
theorem w3_v48 (c : Dev nD) : W3 m ρ c (Proc.devRef .tc main_v48) = shapeCast S1x64 (m ((c : Thread nD τ).loc main_arg15)) shapeCasts_S64_S1x64 := by
  show StableHlo.after hostOps1 (W2 m ρ c) (Proc.devRef .tc main_v48) = _
  after_results_simp
  rw [w2_arg15, w1_arg15]
  rfl
theorem w3_v49 (c : Dev nD) : W3 m ρ c (Proc.devRef .tc main_v49) = shapeCast S1x32 (m ((c : Thread nD τ).loc main_arg17)) shapeCasts_S32_S1x32 := by
  show StableHlo.after hostOps1 (W2 m ρ c) (Proc.devRef .tc main_v49) = _
  after_results_simp
  rw [w2_arg17, w1_arg17]
  rfl
theorem w3_v50 (c : Dev nD) : W3 m ρ c (Proc.devRef .tc main_v50) = shapeCast S1x1 (m ((c : Thread nD τ).loc main_arg19)) shapeCasts_S1_S1x1 := by
  show StableHlo.after hostOps1 (W2 m ρ c) (Proc.devRef .tc main_v50) = _
  after_results_simp
  rw [w2_arg19, w1_arg19]
  rfl

theorem w3_v30 (c : Dev nD) : W3 m ρ c (Proc.devRef .tc main_v30) = W2 m ρ c (Proc.devRef .tc main_v30) := by
  show StableHlo.after hostOps1 (W2 m ρ c) (Proc.devRef .tc main_v30) = _
  after_results_simp
theorem w3_arg9 (c : Dev nD) : W3 m ρ c (Proc.devRef .tc main_arg9) = W2 m ρ c (Proc.devRef .tc main_arg9) := by
  show StableHlo.after hostOps1 (W2 m ρ c) (Proc.devRef .tc main_arg9) = _
  after_results_simp
theorem w3_arg11 (c : Dev nD) : W3 m ρ c (Proc.devRef .tc main_arg11) = W2 m ρ c (Proc.devRef .tc main_arg11) := by
  show StableHlo.after hostOps1 (W2 m ρ c) (Proc.devRef .tc main_arg11) = _
  after_results_simp
theorem w3_arg16 (c : Dev nD) : W3 m ρ c (Proc.devRef .tc main_arg16) = W2 m ρ c (Proc.devRef .tc main_arg16) := by
  show StableHlo.after hostOps1 (W2 m ρ c) (Proc.devRef .tc main_arg16) = _
  after_results_simp
theorem w3_arg18 (c : Dev nD) : W3 m ρ c (Proc.devRef .tc main_arg18) = W2 m ρ c (Proc.devRef .tc main_arg18) := by
  show StableHlo.after hostOps1 (W2 m ρ c) (Proc.devRef .tc main_arg18) = _
  after_results_simp

end Cert.KernelIdeal.HostValue

end
-- ==== Proof.KernelBlocks1.lean ====
/-
  The second pallas_call's output array as one function of the arrays it finds.

  The grid has 20 points; point t stages rows 5000 t … 5000 t + 4999 of the aggregated hidden features and of the hidden
  features, the whole of every weight matrix and parameter row, and writes back rows 5000 t … 5000 t + 4999 of the one
  output column.  Entry p of what point t writes back is `headElt` of row 5000 t + p of the second hidden layer, whose
  entry k' is `sageElt` of row 5000 t + p of the two staged feature arrays: the same expression at every point, so the
  write-backs are the blocks of ONE array, and the 20 blocks tile the 100000 rows.  Everything is stated for ANY
  contents `V` of the buffers when the call is entered.
-/
import proofs.«127177_j12850542150153_1_alg».proof.Proof.FramePKernelIdeal
import proofs.«127177_j12850542150153_1_alg».proof.Proof.KernelBody

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Sage Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-! ## The windows' index maps over the 20 grid points -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = t.val ∧ win1_13.index t (1 : Fin 2) = 0 :=
  (by decide +kernel : ∀ t : Fin grid1.N, _)

/-! ## Each input block, read where the array holds it -/

theorem read1_0 (c : Dev nD) (t : Fin cfg1.N) (p : Fin 5000) (k : Fin 64) (r : Fin 100000) (hr : r.val = t.val * 5000 + p.val) :
    iblk1 V c 0 t (ix2 p k) = V c main_v43 (ix2 r k) := by
  show V c main_v43 (((cfg1.win 0).blk t).view.emb (ix2 p k)) = V c main_v43 (ix2 r k)
  obtain ⟨e0, e1⟩ := idx1_0 t
  refine congrArg (V c main_v43) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

theorem read1_1 (c : Dev nD) (t : Fin cfg1.N) (p : Fin 5000) (k : Fin 64) (r : Fin 100000) (hr : r.val = t.val * 5000 + p.val) :
    iblk1 V c 1 t (ix2 p k) = V c main_v30 (ix2 r k) := by
  show V c main_v30 (((cfg1.win 1).blk t).view.emb (ix2 p k)) = V c main_v30 (ix2 r k)
  obtain ⟨e0, e1⟩ := idx1_1 t
  refine congrArg (V c main_v30) (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

theorem read1_2 (c : Dev nD) (t : Fin cfg1.N) (a : Fin 64) (b : Fin 64) :
    iblk1 V c 2 t (ix2 a b) = V c main_arg9 (ix2 a b) := by
  show V c main_arg9 (((cfg1.win 2).blk t).view.emb (ix2 a b)) = V c main_arg9 (ix2 a b)
  obtain ⟨e0, e1⟩ := idx1_2 t
  refine congrArg (V c main_arg9) (funext fun x => Fin.ext ?_)
  match x with
  | ⟨0, _⟩ => show win1_2.index t (0 : Fin 2) * 64 + 1 * a.val = a.val; omega
  | ⟨1, _⟩ => show win1_2.index t (1 : Fin 2) * 64 + 1 * b.val = b.val; omega

theorem read1_3 (c : Dev nD) (t : Fin cfg1.N) (a : Fin 1) (b : Fin 64) :
    iblk1 V c 3 t (ix2 a b) = V c main_v44 (ix2 a b) := by
  show V c main_v44 (((cfg1.win 3).blk t).view.emb (ix2 a b)) = V c main_v44 (ix2 a b)
  obtain ⟨e0, e1⟩ := idx1_3 t
  refine congrArg (V c main_v44) (funext fun x => Fin.ext ?_)
  match x with
  | ⟨0, _⟩ => show win1_3.index t (0 : Fin 2) * 1 + 1 * a.val = a.val; omega
  | ⟨1, _⟩ => show win1_3.index t (1 : Fin 2) * 64 + 1 * b.val = b.val; omega

theorem read1_4 (c : Dev nD) (t : Fin cfg1.N) (a : Fin 64) (b : Fin 64) :
    iblk1 V c 4 t (ix2 a b) = V c main_arg11 (ix2 a b) := by
  show V c main_arg11 (((cfg1.win 4).blk t).view.emb (ix2 a b)) = V c main_arg11 (ix2 a b)
  obtain ⟨e0, e1⟩ := idx1_4 t
  refine congrArg (V c main_arg11) (funext fun x => Fin.ext ?_)
  match x with
  | ⟨0, _⟩ => show win1_4.index t (0 : Fin 2) * 64 + 1 * a.val = a.val; omega
  | ⟨1, _⟩ => show win1_4.index t (1 : Fin 2) * 64 + 1 * b.val = b.val; omega

theorem read1_5 (c : Dev nD) (t : Fin cfg1.N) (a : Fin 1) (b : Fin 64) :
    iblk1 V c 5 t (ix2 a b) = V c main_v45 (ix2 a b) := by
  show V c main_v45 (((cfg1.win 5).blk t).view.emb (ix2 a b)) = V c main_v45 (ix2 a b)
  obtain ⟨e0, e1⟩ := idx1_5 t
  refine congrArg (V c main_v45) (funext fun x => Fin.ext ?_)
  match x with
  | ⟨0, _⟩ => show win1_5.index t (0 : Fin 2) * 1 + 1 * a.val = a.val; omega
  | ⟨1, _⟩ => show win1_5.index t (1 : Fin 2) * 64 + 1 * b.val = b.val; omega

theorem read1_6 (c : Dev nD) (t : Fin cfg1.N) (a : Fin 1) (b : Fin 64) :
    iblk1 V c 6 t (ix2 a b) = V c main_v46 (ix2 a b) := by
  show V c main_v46 (((cfg1.win 6).blk t).view.emb (ix2 a b)) = V c main_v46 (ix2 a b)
  obtain ⟨e0, e1⟩ := idx1_6 t
  refine congrArg (V c main_v46) (funext fun x => Fin.ext ?_)
  match x with
  | ⟨0, _⟩ => show win1_6.index t (0 : Fin 2) * 1 + 1 * a.val = a.val; omega
  | ⟨1, _⟩ => show win1_6.index t (1 : Fin 2) * 64 + 1 * b.val = b.val; omega

theorem read1_7 (c : Dev nD) (t : Fin cfg1.N) (a : Fin 1) (b : Fin 64) :
    iblk1 V c 7 t (ix2 a b) = V c main_v47 (ix2 a b) := by
  show V c main_v47 (((cfg1.win 7).blk t).view.emb (ix2 a b)) = V c main_v47 (ix2 a b)
  obtain ⟨e0, e1⟩ := idx1_7 t
  refine congrArg (V c main_v47) (funext fun x => Fin.ext ?_)
  match x with
  | ⟨0, _⟩ => show win1_7.index t (0 : Fin 2) * 1 + 1 * a.val = a.val; omega
  | ⟨1, _⟩ => show win1_7.index t (1 : Fin 2) * 64 + 1 * b.val = b.val; omega

theorem read1_8 (c : Dev nD) (t : Fin cfg1.N) (a : Fin 1) (b : Fin 64) :
    iblk1 V c 8 t (ix2 a b) = V c main_v48 (ix2 a b) := by
  show V c main_v48 (((cfg1.win 8).blk t).view.emb (ix2 a b)) = V c main_v48 (ix2 a b)
  obtain ⟨e0, e1⟩ := idx1_8 t
  refine congrArg (V c main_v48) (funext fun x => Fin.ext ?_)
  match x with
  | ⟨0, _⟩ => show win1_8.index t (0 : Fin 2) * 1 + 1 * a.val = a.val; omega
  | ⟨1, _⟩ => show win1_8.index t (1 : Fin 2) * 64 + 1 * b.val = b.val; omega

theorem read1_9 (c : Dev nD) (t : Fin cfg1.N) (a : Fin 64) (b : Fin 32) :
    iblk1 V c 9 t (ix2 a b) = V c main_arg16 (ix2 a b) := by
  show V c main_arg16 (((cfg1.win 9).blk t).view.emb (ix2 a b)) = V c main_arg16 (ix2 a b)
  obtain ⟨e0, e1⟩ := idx1_9 t
  refine congrArg (V c main_arg16) (funext fun x => Fin.ext ?_)
  match x with
  | ⟨0, _⟩ => show win1_9.index t (0 : Fin 2) * 64 + 1 * a.val = a.val; omega
  | ⟨1, _⟩ => show win1_9.index t (1 : Fin 2) * 32 + 1 * b.val = b.val; omega

theorem read1_10 (c : Dev nD) (t : Fin cfg1.N) (a : Fin 1) (b : Fin 32) :
    iblk1 V c 10 t (ix2 a b) = V c main_v49 (ix2 a b) := by
  show V c main_v49 (((cfg1.win 10).blk t).view.emb (ix2 a b)) = V c main_v49 (ix2 a b)
  obtain ⟨e0, e1⟩ := idx1_10 t
  refine congrArg (V c main_v49) (funext fun x => Fin.ext ?_)
  match x with
  | ⟨0, _⟩ => show win1_10.index t (0 : Fin 2) * 1 + 1 * a.val = a.val; omega
  | ⟨1, _⟩ => show win1_10.index t (1 : Fin 2) * 32 + 1 * b.val = b.val; omega

theorem read1_11 (c : Dev nD) (t : Fin cfg1.N) (a : Fin 32) (b : Fin 1) :
    iblk1 V c 11 t (ix2 a b) = V c main_arg18 (ix2 a b) := by
  show V c main_arg18 (((cfg1.win 11).blk t).view.emb (ix2 a b)) = V c main_arg18 (ix2 a b)
  obtain ⟨e0, e1⟩ := idx1_11 t
  refine congrArg (V c main_arg18) (funext fun x => Fin.ext ?_)
  match x with
  | ⟨0, _⟩ => show win1_11.index t (0 : Fin 2) * 32 + 1 * a.val = a.val; omega
  | ⟨1, _⟩ => show win1_11.index t (1 : Fin 2) * 1 + 1 * b.val = b.val; omega

theorem read1_12 (c : Dev nD) (t : Fin cfg1.N) (a : Fin 1) (b : Fin 1) :
    iblk1 V c 12 t (ix2 a b) = V c main_v50 (ix2 a b) := by
  show V c main_v50 (((cfg1.win 12).blk t).view.emb (ix2 a b)) = V c main_v50 (ix2 a b)
  obtain ⟨e0, e1⟩ := idx1_12 t
  refine congrArg (V c main_v50) (funext fun x => Fin.ext ?_)
  match x with
  | ⟨0, _⟩ => show win1_12.index t (0 : Fin 2) * 1 + 1 * a.val = a.val; omega
  | ⟨1, _⟩ => show win1_12.index t (1 : Fin 2) * 1 + 1 * b.val = b.val; omega

/-! ## The output array -/

/-- The second hidden layer's row, from the entered arrays. -/
def hidden (c : Dev nD) (r : Fin 100000) (k' : Fin 64) : EReal :=
  sageElt (fun k : Fin 64 => V c main_v43 (ix2 r k)) (fun k : Fin 64 => V c main_v30 (ix2 r k))
    (fun k : Fin 64 => V c main_arg9 (ix2 k k')) (fun k : Fin 64 => V c main_arg11 (ix2 k k'))
    (V c main_v44 (ix2 (0 : Fin 1) k')) (V c main_v45 (ix2 (0 : Fin 1) k')) (V c main_v46 (ix2 (0 : Fin 1) k'))
    (V c main_v47 (ix2 (0 : Fin 1) k')) (V c main_v48 (ix2 (0 : Fin 1) k'))

/-- The array the call leaves: `headElt` of the second hidden layer of the entered arrays, entry by entry. -/
def out (c : Dev nD) : S100000x1.Idx → EReal := fun i =>
  headElt (fun k' : Fin 64 => hidden V c (row i) k') (fun (k' : Fin 64) (k : Fin 32) => V c main_arg16 (ix2 k' k))
    (fun k : Fin 32 => V c main_v49 (ix2 (0 : Fin 1) k)) (fun k : Fin 32 => V c main_arg18 (ix2 k (0 : Fin 1)))
    (V c main_v50 (ix2 (0 : Fin 1) (0 : Fin 1)))

/-- What point t writes back is block t of `out`. -/
theorem flushed_eq (c : Dev nD) (t : Fin cfg1.N) :
    (dat1 V c).flushed 13 t = ((cfg1.win 13).blk t).view.read (Elt Ideal) (out V c) := by
  show (cfg1.win 13).cut (grid1.coords t) ((dat1 V c).after 13 t) = _
  rw [after1_13]
  unfold out1_13
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz, View.ld_unit_zero (S := S32x1) hz,
    View.ld_unit_zero (S := S1x1) hz]
  funext j
  obtain ⟨p, u, rfl⟩ : ∃ (p : Fin 5000) (u : Fin 1), j = ix2 p u := ⟨j 0, j 1, eq_ix2 j⟩
  have hN : t.val < 20 := by have := t.isLt; have h20 : cfg1.N = 20 := GenP.N_1; omega
  obtain ⟨e0, e1⟩ := idx1_13 t
  have hemb : ((cfg1.win 13).blk t).view.emb (ix2 p u) = (ix2 (⟨t.val * 5000 + p.val, by omega⟩ : Fin 100000) u : S100000x1.Idx) :=
    funext fun a => Fin.ext (by
      match a with
      | ⟨0, _⟩ => show win1_13.index t (0 : Fin 2) * 5000 + 1 * p.val = t.val * 5000 + p.val; omega
      | ⟨1, _⟩ => show win1_13.index t (1 : Fin 2) * 1 + 1 * u.val = u.val; omega)
  show k1_pay1 (F := Ideal) (k1_pay2 (F := Ideal) (iblk1 V c 0 t) (iblk1 V c 1 t) (iblk1 V c 2 t) (iblk1 V c 4 t) (iblk1 V c 3 t)
        (iblk1 V c 5 t) (iblk1 V c 8 t) (iblk1 V c 7 t) (iblk1 V c 6 t))
      (iblk1 V c 9 t) (iblk1 V c 10 t) (iblk1 V c 11 t) (iblk1 V c 12 t) (ix2 p u)
    = out V c (((cfg1.win 13).blk t).view.emb (ix2 p u))
  rw [hemb]
  refine (head_entry (k1_pay2 (F := Ideal) (iblk1 V c 0 t) (iblk1 V c 1 t) (iblk1 V c 2 t) (iblk1 V c 4 t) (iblk1 V c 3 t)
        (iblk1 V c 5 t) (iblk1 V c 8 t) (iblk1 V c 7 t) (iblk1 V c 6 t))
      (iblk1 V c 9 t) (iblk1 V c 10 t) (iblk1 V c 11 t) (iblk1 V c 12 t) p u).trans ?_
  have hrow : ∀ k' : Fin 64, k1_pay2 (F := Ideal) (iblk1 V c 0 t) (iblk1 V c 1 t) (iblk1 V c 2 t) (iblk1 V c 4 t) (iblk1 V c 3 t)
        (iblk1 V c 5 t) (iblk1 V c 8 t) (iblk1 V c 7 t) (iblk1 V c 6 t) (ix2 p k')
      = hidden V c (⟨t.val * 5000 + p.val, by omega⟩ : Fin 100000) k' := fun k' => by
    refine (layer1_entry (iblk1 V c 0 t) (iblk1 V c 1 t) (iblk1 V c 2 t) (iblk1 V c 4 t) (iblk1 V c 3 t)
        (iblk1 V c 5 t) (iblk1 V c 8 t) (iblk1 V c 7 t) (iblk1 V c 6 t) p k').trans ?_
    unfold hidden
    simp only [read1_0 V c t p _ ⟨t.val * 5000 + p.val, by omega⟩ rfl, read1_1 V c t p _ ⟨t.val * 5000 + p.val, by omega⟩ rfl,
      read1_2, read1_3, read1_4, read1_5, read1_6, read1_7, read1_8]
  show _ = headElt (fun k' : Fin 64 => hidden V c (⟨t.val * 5000 + p.val, by omega⟩ : Fin 100000) k')
      (fun (k' : Fin 64) (k : Fin 32) => V c main_arg16 (ix2 k' k))
      (fun k : Fin 32 => V c main_v49 (ix2 (0 : Fin 1) k)) (fun k : Fin 32 => V c main_arg18 (ix2 k (0 : Fin 1)))
      (V c main_v50 (ix2 (0 : Fin 1) (0 : Fin 1)))
  simp only [hrow, read1_9, read1_10, read1_11, read1_12]

/-- An index of the output array is in point t's block iff each coordinate is in the block's range. -/
theorem mem_blk (t : Fin cfg1.N) (i : S100000x1.Idx) :
    i ∈ ((cfg1.win 13).blk t).view.set ↔ ∀ a : Fin 2, win1_13.index t a * S5000x1.size a ≤ (i a).val ∧ (i a).val < win1_13.index t a * S5000x1.size a + S5000x1.size a := by
  show i ∈ ((View.whole main_v51).slice (win1_13.rect t)).set ↔ _
  rw [View.set_slice_whole, Rect.mem_set_unit]
  exact Iff.rfl

/-- The 20 blocks tile the array: row r is in block r / 5000. -/
theorem cover (i : S100000x1.Idx) : ∃ t : Fin cfg1.N, (cfg1.win 13).flush t = true ∧ i ∈ ((cfg1.win 13).blk t).view.set := by
  have hN : grid1.N = 20 := GenP.N_1
  have hi0 : (i 0).val < 100000 := (i 0).isLt
  have hi1 : (i 1).val < 1 := (i 1).isLt
  refine ⟨⟨(i 0).val / 5000, by show (i 0).val / 5000 < grid1.N; omega⟩, flush1_13 _, ?_⟩
  rw [mem_blk]
  obtain ⟨e0, e1⟩ := idx1_13 ⟨(i 0).val / 5000, by show (i 0).val / 5000 < grid1.N; omega⟩
  intro a
  match a with
  | ⟨0, _⟩ => show win1_13.index _ (0 : Fin 2) * 5000 ≤ (i 0).val ∧ (i 0).val < win1_13.index _ (0 : Fin 2) * 5000 + 5000; rw [e0]; show (i 0).val / 5000 * 5000 ≤ (i 0).val ∧ (i 0).val < (i 0).val / 5000 * 5000 + 5000; omega
  | ⟨1, _⟩ => show win1_13.index _ (1 : Fin 2) * 1 ≤ (i 1).val ∧ (i 1).val < win1_13.index _ (1 : Fin 2) * 1 + 1; rw [e1]; omega

/-- THE ARRAY after the call: `out` of the arrays the call found. -/
theorem final (c : Dev nD) : (dat1 V c).arrAt 13 cfg1.N = out V c :=
  (dat1 V c).arrAt_eq_of_cover 13 (out V c) (fun t _ => flushed_eq V c t) cover

end Cert.KernelIdeal.Blocks1

end
-- ==== Proof.KernelResult.lean ====
/-
  The idealized kernel program's result as one function of its launch arguments.

  The first pallas_call enters with the mean aggregate of the features, the features, the two weight matrices and the
  five parameter vectors laid out as rows, so the array it leaves is the first layer of those (`hidden0`).  The second
  enters with the mean aggregate of that array (`aggOf`), that array, and the remaining weights and parameter rows, so
  the array it leaves is the head of the second layer.  The closing host operation reshapes its one column to a vector.
-/
import proofs.«127177_j12850542150153_1_alg».proof.Proof.KernelHost
import proofs.«127177_j12850542150153_1_alg».proof.Proof.KernelBlocks1
import proofs.«127177_j12850542150153_1_alg».proof.Proof.Spec
import Idealize.ShloMosaic.Lib.ValueLayout

set_option maxRecDepth 16384

noncomputable section

namespace Cert.KernelIdeal.Result

open Idealize.ShloMosaic Idealize.ShloMosaic.TcCoe Idealize.ShloMosaic.StableHlo Idealize.ShloMosaic.ValueIdx Idealize.SL.Sem
open Cert.KernelIdeal Cert.KernelIdeal.Gen Cert.KernelIdeal.GenP Cert.KernelIdeal.HostValue Cert.Sage

variable (m : (ℓ : Loc nD τ sig) → Buf (Elt Ideal) ℓ) (ρ : Dev nD → PrngReg)

/-- The first hidden array: the first layer of the mean-aggregated features and the features. -/
def hidden0 (c : Dev nD) : (⟨2, ![100000, 64]⟩ : Shape).Idx → EReal :=
  layer (Cert.ReferenceIdeal.Read.val_main_v24 (F := Ideal) (m ((c : Thread nD τ).loc main_arg0)) (m ((c : Thread nD τ).loc main_arg1))) (m ((c : Thread nD τ).loc main_arg0)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8))

/-- The output before the closing reshape: the head of the second layer of the aggregated first hidden array and that
    array. -/
def column (c : Dev nD) : (⟨2, ![100000, 1]⟩ : Shape).Idx → EReal :=
  head (layer (aggOf (hidden0 m c) (m ((c : Thread nD τ).loc main_arg1))) (hidden0 m c) (m ((c : Thread nD τ).loc main_arg9)) (m ((c : Thread nD τ).loc main_arg11)) (m ((c : Thread nD τ).loc main_arg10)) (m ((c : Thread nD τ).loc main_arg12)) (m ((c : Thread nD τ).loc main_arg13)) (m ((c : Thread nD τ).loc main_arg14)) (m ((c : Thread nD τ).loc main_arg15)))
    (m ((c : Thread nD τ).loc main_arg16)) (m ((c : Thread nD τ).loc main_arg17)) (m ((c : Thread nD τ).loc main_arg18)) (m ((c : Thread nD τ).loc main_arg19))

/-- The first call's output array at row r and channel q, for any entered contents. -/
theorem out0_ix2 (V : (c : Dev nD) → (b : Ref sig .tc) → Buf (Elt Ideal) ((c : Thread nD τ).loc b)) (c : Dev nD)
    (r : Fin 100000) (q : Fin 64) :
    Blocks0.out V c (ix2 r q)
      = sageElt (fun k : Fin 128 => V c main_v24 (ix2 r k)) (fun k : Fin 128 => V c main_arg0 (ix2 r k))
          (fun k : Fin 128 => V c main_arg2 (ix2 k q)) (fun k : Fin 128 => V c main_arg4 (ix2 k q))
          (V c main_v25 (ix2 (0 : Fin 1) q)) (V c main_v26 (ix2 (0 : Fin 1) q)) (V c main_v27 (ix2 (0 : Fin 1) q))
          (V c main_v28 (ix2 (0 : Fin 1) q)) (V c main_v29 (ix2 (0 : Fin 1) q)) := rfl

/-- The second call's output array at row r, for any entered contents. -/
theorem out1_ix2 (V : (c : Dev nD) → (b : Ref sig .tc) → Buf (Elt Ideal) ((c : Thread nD τ).loc b)) (c : Dev nD)
    (r : Fin 100000) (u : Fin 1) :
    Blocks1.out V c (ix2 r u)
      = headElt (fun k' : Fin 64 => Blocks1.hidden V c r k') (fun (k' : Fin 64) (k : Fin 32) => V c main_arg16 (ix2 k' k))
          (fun k : Fin 32 => V c main_v49 (ix2 (0 : Fin 1) k)) (fun k : Fin 32 => V c main_arg18 (ix2 k (0 : Fin 1)))
          (V c main_v50 (ix2 (0 : Fin 1) (0 : Fin 1))) := rfl

/-- The first call leaves the first hidden array. -/
theorem out0_eq (c : Dev nD) : Blocks0.out (V1 m ρ) c = hidden0 m c := by
  funext i
  obtain ⟨r, q, rfl⟩ : ∃ (r : Fin 100000) (q : Fin 64), i = ix2 r q := ⟨i 0, i 1, eq_ix2 i⟩
  rw [out0_ix2, hidden0, layer_ix2]
  simp only [V1]
  rw [w1_v24 m ρ c, w1_arg0 m ρ c, w1_arg2 m ρ c, w1_arg4 m ρ c, w1_v25 m ρ c, w1_v26 m ρ c, w1_v27 m ρ c, w1_v28 m ρ c,
    w1_v29 m ρ c]
  simp only [shapeCast_a_1a_apply]

/-- The second call leaves the head of the second layer. -/
theorem out1_eq (c : Dev nD) : Blocks1.out (V3 m ρ) c = column m c := by
  funext i
  obtain ⟨r, u, rfl⟩ : ∃ (r : Fin 100000) (u : Fin 1), i = ix2 r u := ⟨i 0, i 1, eq_ix2 i⟩
  rw [out1_ix2, column, head_ix2]
  simp only [Blocks1.hidden, layer_ix2, V3]
  rw [w3_v43 m ρ c, w3_v30 m ρ c, w2_v30 m ρ c, out0_eq m ρ c,
    w3_arg9 m ρ c, w2_arg9 m ρ c, w1_arg9 m ρ c, w3_arg11 m ρ c, w2_arg11 m ρ c, w1_arg11 m ρ c,
    w3_arg16 m ρ c, w2_arg16 m ρ c, w1_arg16 m ρ c, w3_arg18 m ρ c, w2_arg18 m ρ c, w1_arg18 m ρ c,
    w3_v44 m ρ c, w3_v45 m ρ c, w3_v46 m ρ c, w3_v47 m ρ c, w3_v48 m ρ c, w3_v49 m ρ c, w3_v50 m ρ c]
  simp only [shapeCast_a_1a_apply]

/-- THE RESULT BUFFER after the run: the closing reshape of `column`. -/
theorem result_eq (c : Dev nD) :
    W5 m ρ c (Proc.devRef .tc main_v52) = shapeCast S100000 (column m c) shapeCasts_S100000x1_S100000 := by
  have h5 : W5 m ρ c (Proc.devRef .tc main_v52)
      = shapeCast S100000 (W4 m ρ c (Proc.devRef .tc main_v51)) shapeCasts_S100000x1_S100000 := by
    show StableHlo.after hostOps2 (W4 m ρ c) (Proc.devRef .tc main_v52) = _
    after_results
    rfl
  have h4 : W4 m ρ c (Proc.devRef .tc main_v51) = Blocks1.out (V3 m ρ) c :=
    (W4_arr m ρ c 13).trans (Blocks1.final (V3 m ρ) c)
  rw [h5, h4, out1_eq]

end Cert.KernelIdeal.Result

end
-- ==== Proof.RefValue.lean ====
/-
  The reference program's stages as the network's layers.

  Read one entry at a time, the reference's first hidden array is `layer` of the mean-aggregated features and the
  features, its second hidden array is `layer` of the mean-aggregated first hidden array and that array, and its output
  before the closing reshape is `head` of the second hidden array.  Each product of the reference is the plain sum over
  the contracted axis, each parameter vector is broadcast along the rows, and the logistic function is spelt as
  1 / (1 + exp (- z)), which is its definition on the extended reals once the word of 1.0 is read as the number one.
  The gathers and scatter-adds that build the aggregated arrays are never opened: they stay inside the stages
  `val_main_v24` and `val_main_v57`.
-/
import proofs.«127177_j12850542150153_1_alg».proof.Proof.Gen.ReferenceIdeal.Read
import proofs.«127177_j12850542150153_1_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.Sage

/-! ## The composed index maps of the products and of the row broadcasts, at explicit coordinates -/

theorem l25 (r : Fin 100000) (c : Fin 64) (k : Fin 128) : lidx_main_v25 (ix2 r c) k = ix2 r k :=
  funext fun a => Fin.ext (by match a with | ⟨0, _⟩ => rfl | ⟨1, _⟩ => rfl)
theorem r25 (r : Fin 100000) (c : Fin 64) (k : Fin 128) : ridx_main_v25 (ix2 r c) k = ix2 k c :=
  funext fun a => Fin.ext (by match a with | ⟨0, _⟩ => rfl | ⟨1, _⟩ => rfl)
theorem l29 (r : Fin 100000) (c : Fin 64) (k : Fin 128) : lidx_main_v29 (ix2 r c) k = ix2 r k :=
  funext fun a => Fin.ext (by match a with | ⟨0, _⟩ => rfl | ⟨1, _⟩ => rfl)
theorem r29 (r : Fin 100000) (c : Fin 64) (k : Fin 128) : ridx_main_v29 (ix2 r c) k = ix2 k c :=
  funext fun a => Fin.ext (by match a with | ⟨0, _⟩ => rfl | ⟨1, _⟩ => rfl)
theorem l58 (r : Fin 100000) (c : Fin 64) (k : Fin 64) : lidx_main_v58 (ix2 r c) k = ix2 r k :=
  funext fun a => Fin.ext (by match a with | ⟨0, _⟩ => rfl | ⟨1, _⟩ => rfl)
theorem r58 (r : Fin 100000) (c : Fin 64) (k : Fin 64) : ridx_main_v58 (ix2 r c) k = ix2 k c :=
  funext fun a => Fin.ext (by match a with | ⟨0, _⟩ => rfl | ⟨1, _⟩ => rfl)
theorem l62 (r : Fin 100000) (c : Fin 64) (k : Fin 64) : lidx_main_v62 (ix2 r c) k = ix2 r k :=
  funext fun a => Fin.ext (by match a with | ⟨0, _⟩ => rfl | ⟨1, _⟩ => rfl)
theorem r62 (r : Fin 100000) (c : Fin 64) (k : Fin 64) : ridx_main_v62 (ix2 r c) k = ix2 k c :=
  funext fun a => Fin.ext (by match a with | ⟨0, _⟩ => rfl | ⟨1, _⟩ => rfl)
theorem l78 (r : Fin 100000) (c : Fin 32) (k : Fin 64) : lidx_main_v78 (ix2 r c) k = ix2 r k :=
  funext fun a => Fin.ext (by match a with | ⟨0, _⟩ => rfl | ⟨1, _⟩ => rfl)
theorem r78 (r : Fin 100000) (c : Fin 32) (k : Fin 64) : ridx_main_v78 (ix2 r c) k = ix2 k c :=
  funext fun a => Fin.ext (by match a with | ⟨0, _⟩ => rfl | ⟨1, _⟩ => rfl)
theorem l83 (r : Fin 100000) (c : Fin 1) (k : Fin 32) : lidx_main_v83 (ix2 r c) k = ix2 r k :=
  funext fun a => Fin.ext (by match a with | ⟨0, _⟩ => rfl | ⟨1, _⟩ => rfl)
theorem r83 (r : Fin 100000) (c : Fin 1) (k : Fin 32) : ridx_main_v83 (ix2 r c) k = ix2 k c :=
  funext fun a => Fin.ext (by match a with | ⟨0, _⟩ => rfl | ⟨1, _⟩ => rfl)

theorem b26_27 (r : Fin 100000) (c : Fin 64) : idx_main_v26 (idx_main_v27 (ix2 r c)) = ix1 c :=
  funext fun a => Fin.ext (by match a with | ⟨0, _⟩ => rfl)
theorem b31_32 (r : Fin 100000) (c : Fin 64) : idx_main_v31 (idx_main_v32 (ix2 r c)) = ix1 c :=
  funext fun a => Fin.ext (by match a with | ⟨0, _⟩ => rfl)
theorem b38_39 (r : Fin 100000) (c : Fin 64) : idx_main_v38 (idx_main_v39 (ix2 r c)) = ix1 c :=
  funext fun a => Fin.ext (by match a with | ⟨0, _⟩ => rfl)
theorem b41_42 (r : Fin 100000) (c : Fin 64) : idx_main_v41 (idx_main_v42 (ix2 r c)) = ix1 c :=
  funext fun a => Fin.ext (by match a with | ⟨0, _⟩ => rfl)
theorem b59_60 (r : Fin 100000) (c : Fin 64) : idx_main_v59 (idx_main_v60 (ix2 r c)) = ix1 c :=
  funext fun a => Fin.ext (by match a with | ⟨0, _⟩ => rfl)
theorem b64_65 (r : Fin 100000) (c : Fin 64) : idx_main_v64 (idx_main_v65 (ix2 r c)) = ix1 c :=
  funext fun a => Fin.ext (by match a with | ⟨0, _⟩ => rfl)
theorem b71_72 (r : Fin 100000) (c : Fin 64) : idx_main_v71 (idx_main_v72 (ix2 r c)) = ix1 c :=
  funext fun a => Fin.ext (by match a with | ⟨0, _⟩ => rfl)
theorem b74_75 (r : Fin 100000) (c : Fin 64) : idx_main_v74 (idx_main_v75 (ix2 r c)) = ix1 c :=
  funext fun a => Fin.ext (by match a with | ⟨0, _⟩ => rfl)
theorem b79_80 (r : Fin 100000) (c : Fin 32) : idx_main_v79 (idx_main_v80 (ix2 r c)) = ix1 c :=
  funext fun a => Fin.ext (by match a with | ⟨0, _⟩ => rfl)
theorem b84_85 (r : Fin 100000) (c : Fin 1) : idx_main_v84 (idx_main_v85 (ix2 r c)) = ix1 c :=
  funext fun a => Fin.ext (by
    match a with
    | ⟨0, _⟩ => show (0 : ℕ) = c.val; omega)

/-! ## The three stages -/

/-- The first hidden array is the first layer of the aggregated features and the features. -/
theorem hidden0_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) :
    val_main_v44 (F := Ideal) x0 x1 x2 x3 x4 x5 x6 x7 x8 = layer (val_main_v24 (F := Ideal) x0 x1) x0 x2 x4 x3 x5 x6 x7 x8 := by
  funext j
  obtain ⟨r, c, rfl⟩ : ∃ (r : Fin 100000) (c : Fin 64), j = ix2 r c := ⟨j 0, j 1, eq_ix2 j⟩
  rw [layer_ix2]
  rw [val_main_v44_apply, val_main_v43_apply, val_main_v40_apply, val_main_v33_apply, val_main_v30_apply, val_main_v28_apply,
    val_main_v25_apply, val_main_v29_apply, val_main_v27_apply, val_main_v26_apply, val_main_v32_apply, val_main_v31_apply,
    val_main_v39_apply, val_main_v38_apply, val_main_v37_apply, val_main_v36_apply, val_main_v35_apply, val_main_v34_apply,
    val_main_cst_5_apply, val_main_v42_apply, val_main_v41_apply, val_main_call0_v0_apply, val_main_call0_cst_apply]
  rw [b26_27 r c, b31_32 r c, b38_39 r c, b41_42 r c]
  have s1 : (∑ k : Fin 128, val_main_v24 (F := Ideal) x0 x1 (lidx_main_v25 (ix2 r c) k) * x2 (ridx_main_v25 (ix2 r c) k))
      = ∑ k : Fin 128, val_main_v24 (F := Ideal) x0 x1 (ix2 r k) * x2 (ix2 k c) :=
    Finset.sum_congr rfl fun k _ => by rw [l25 r c k, r25 r c k]
  have s2 : (∑ k : Fin 128, x0 (lidx_main_v29 (ix2 r c) k) * x4 (ridx_main_v29 (ix2 r c) k))
      = ∑ k : Fin 128, x0 (ix2 r k) * x4 (ix2 k c) :=
    Finset.sum_congr rfl fun k _ => by rw [l29 r c k, r29 r c k]
  rw [s1, s2]
  rfl

/-- The second hidden array is the second layer of the aggregated first hidden array and that array. -/
theorem hidden1_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) :
    val_main_v77 (F := Ideal) x0 x1 x2 x3 x4 x5 x6 x7 x8 x9 x10 x11 x12 x13 x14 x15
      = layer (val_main_v57 (F := Ideal) x0 x1 x2 x3 x4 x5 x6 x7 x8) (val_main_v44 (F := Ideal) x0 x1 x2 x3 x4 x5 x6 x7 x8) x9 x11 x10 x12 x13 x14 x15 := by
  funext j
  obtain ⟨r, c, rfl⟩ : ∃ (r : Fin 100000) (c : Fin 64), j = ix2 r c := ⟨j 0, j 1, eq_ix2 j⟩
  rw [layer_ix2]
  rw [val_main_v77_apply, val_main_v76_apply, val_main_v73_apply, val_main_v66_apply, val_main_v63_apply, val_main_v61_apply,
    val_main_v58_apply, val_main_v62_apply, val_main_v60_apply, val_main_v59_apply, val_main_v65_apply, val_main_v64_apply,
    val_main_v72_apply, val_main_v71_apply, val_main_v70_apply, val_main_v69_apply, val_main_v68_apply, val_main_v67_apply,
    val_main_cst_9_apply, val_main_v75_apply, val_main_v74_apply, val_main_call1_v0_apply, val_main_call1_cst_apply]
  rw [b59_60 r c, b64_65 r c, b71_72 r c, b74_75 r c]
  have s1 : (∑ k : Fin 64, val_main_v57 (F := Ideal) x0 x1 x2 x3 x4 x5 x6 x7 x8 (lidx_main_v58 (ix2 r c) k) * x9 (ridx_main_v58 (ix2 r c) k))
      = ∑ k : Fin 64, val_main_v57 (F := Ideal) x0 x1 x2 x3 x4 x5 x6 x7 x8 (ix2 r k) * x9 (ix2 k c) :=
    Finset.sum_congr rfl fun k _ => by rw [l58 r c k, r58 r c k]
  have s2 : (∑ k : Fin 64, val_main_v44 (F := Ideal) x0 x1 x2 x3 x4 x5 x6 x7 x8 (lidx_main_v62 (ix2 r c) k) * x11 (ridx_main_v62 (ix2 r c) k))
      = ∑ k : Fin 64, val_main_v44 (F := Ideal) x0 x1 x2 x3 x4 x5 x6 x7 x8 (ix2 r k) * x11 (ix2 k c) :=
    Finset.sum_congr rfl fun k _ => by rw [l62 r c k, r62 r c k]
  rw [s1, s2]
  rfl

/-- One unit of the head's hidden layer, at node r and unit k. -/
theorem unit_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (r : Fin 100000) (k : Fin 32) :
    val_main_v82 (F := Ideal) x0 x1 x2 x3 x4 x5 x6 x7 x8 x9 x10 x11 x12 x13 x14 x15 x16 x17 (ix2 r k)
      = max ((∑ k' : Fin 64, val_main_v77 (F := Ideal) x0 x1 x2 x3 x4 x5 x6 x7 x8 x9 x10 x11 x12 x13 x14 x15 (ix2 r k') * x16 (ix2 k' k)) + x17 (ix1 k)) zeroW := by
  rw [val_main_v82_apply, val_main_v81_apply, val_main_v78_apply, val_main_v80_apply, val_main_v79_apply,
    val_main_call2_v0_apply, val_main_call2_cst_apply]
  rw [b79_80 r k]
  have s : (∑ k' : Fin 64, val_main_v77 (F := Ideal) x0 x1 x2 x3 x4 x5 x6 x7 x8 x9 x10 x11 x12 x13 x14 x15 (lidx_main_v78 (ix2 r k) k') * x16 (ridx_main_v78 (ix2 r k) k'))
      = ∑ k' : Fin 64, val_main_v77 (F := Ideal) x0 x1 x2 x3 x4 x5 x6 x7 x8 x9 x10 x11 x12 x13 x14 x15 (ix2 r k') * x16 (ix2 k' k) :=
    Finset.sum_congr rfl fun k' _ => by rw [l78 r k k', r78 r k k']
  rw [s]
  rfl

/-- The output before the closing reshape is the head of the second hidden array. -/
theorem out_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x18 : (⟨S32x1, .f32⟩ : BufTy).Contents (Elt Ideal)) (x19 : (⟨S1, .f32⟩ : BufTy).Contents (Elt Ideal)) :
    val_main_v92 (F := Ideal) x0 x1 x2 x3 x4 x5 x6 x7 x8 x9 x10 x11 x12 x13 x14 x15 x16 x17 x18 x19 = head (val_main_v77 (F := Ideal) x0 x1 x2 x3 x4 x5 x6 x7 x8 x9 x10 x11 x12 x13 x14 x15) x16 x17 x18 x19 := by
  funext j
  obtain ⟨r, u, rfl⟩ : ∃ (r : Fin 100000) (u : Fin 1), j = ix2 r u := ⟨j 0, j 1, eq_ix2 j⟩
  have hu : u = (0 : Fin 1) := Subsingleton.elim _ _
  subst hu
  rw [head_ix2]
  rw [val_main_v92_apply, val_main_v91_apply, val_main_cst_11_apply, val_main_v90_apply, val_main_v89_apply,
    val_main_cst_10_apply, val_main_v88_apply, val_main_v87_apply, val_main_v86_apply, val_main_v83_apply,
    val_main_v85_apply, val_main_v84_apply]
  rw [b84_85 r (0 : Fin 1)]
  have s : (∑ k : Fin 32, val_main_v82 (F := Ideal) x0 x1 x2 x3 x4 x5 x6 x7 x8 x9 x10 x11 x12 x13 x14 x15 x16 x17 (lidx_main_v83 (ix2 r (0 : Fin 1)) k) * x18 (ridx_main_v83 (ix2 r (0 : Fin 1)) k))
      = ∑ k : Fin 32, max ((∑ k' : Fin 64, val_main_v77 (F := Ideal) x0 x1 x2 x3 x4 x5 x6 x7 x8 x9 x10 x11 x12 x13 x14 x15 (ix2 r k') * x16 (ix2 k' k)) + x17 (ix1 k)) zeroW
          * x18 (ix2 k (0 : Fin 1)) :=
    Finset.sum_congr rfl fun k _ => by rw [l83 r (0 : Fin 1) k, r83 r (0 : Fin 1) k, unit_at]
  rw [s, Ideal.ofBits_def, oneW]
  rw [Ideal.hostDivf_def, Ideal.addf_def, Ideal.hostUnary_exp_def, Ideal.hostNegf_def, Ideal.negf_def, Ideal.addf_def]
  rfl

/-- The reference's result: the closing reshape of the head. -/
theorem result_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) (x16 : (⟨S64x32, .f32⟩ : BufTy).Contents (Elt Ideal)) (x17 : (⟨S32, .f32⟩ : BufTy).Contents (Elt Ideal)) (x18 : (⟨S32x1, .f32⟩ : BufTy).Contents (Elt Ideal)) (x19 : (⟨S1, .f32⟩ : BufTy).Contents (Elt Ideal)) :
    val_main_v93 (F := Ideal) x0 x1 x2 x3 x4 x5 x6 x7 x8 x9 x10 x11 x12 x13 x14 x15 x16 x17 x18 x19
      = shapeCast _ (head (layer (val_main_v57 (F := Ideal) x0 x1 x2 x3 x4 x5 x6 x7 x8) (layer (val_main_v24 (F := Ideal) x0 x1) x0 x2 x4 x3 x5 x6 x7 x8) x9 x11 x10 x12 x13 x14 x15) x16 x17 x18 x19) shapeCasts_S100000x1_S100000 := by
  unfold val_main_v93
  rw [out_eq, hidden1_eq, hidden0_eq]

end Cert.ReferenceIdeal.RefValue

end
-- ==== Proof.Bridge.lean ====
/-
  The two results are one function of the arguments.

  The reference's mean aggregate of its first hidden array is the same gather, scatter-add and scaling that the kernel
  program performs between its two pallas_calls (`aggOf`), applied to the reference's first hidden array; and that
  array is the first layer of the aggregated features, which is what the first pallas_call leaves.  So both results
  are the closing reshape of the head of the second layer of the same two arrays.
-/
import proofs.«127177_j12850542150153_1_alg».proof.Proof.KernelResult
import proofs.«127177_j12850542150153_1_alg».proof.Proof.RefValue

noncomputable section

namespace Cert.Proof.Bridge

open Idealize.ShloMosaic Idealize.ShloMosaic.TcCoe Idealize.SL.Sem
open Cert.ReferenceIdeal Cert.KernelIdeal.HostValue Cert.Sage

/-- The reference's aggregate of its first hidden array is `aggOf` of that array and the edge list. -/
theorem agg1_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) :
    Cert.ReferenceIdeal.Read.val_main_v57 (F := Ideal) x0 x1 x2 x3 x4 x5 x6 x7 x8
      = aggOf (Cert.ReferenceIdeal.Read.val_main_v44 (F := Ideal) x0 x1 x2 x3 x4 x5 x6 x7 x8) x1 := rfl

/-- After its run the kernel program's result buffer holds the reference's result of the same arguments. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.GenP.W5 m ρ c (Proc.devRef .tc Cert.KernelIdeal.main_v52)
      = Cert.ReferenceIdeal.Read.val_main_v93 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) := by
  rw [Cert.KernelIdeal.Result.result_eq, Cert.ReferenceIdeal.RefValue.result_eq, agg1_eq, Cert.ReferenceIdeal.RefValue.hidden0_eq]
  rfl

end Cert.Proof.Bridge

end
-- ==== Proof.lean ====
/-
  A two-layer graph-convolution network with a logistic head, computed by two pallas_calls between host gathers and
  scatter-adds, against the same network written in plain array operations.

  Both programs form, from the node features x and the edge list, the mean over each node's in-neighbours (gather the
  source rows, scatter-add at the targets, divide by the clamped in-degree), then twice a layer
      h = max ( ((agg · Wl + bl + h_prev · Wr) − mu) · (g · rsqrt (v + eps)) + b , 0 ),
  then  logistic ( max (h · W1 + b1, 0) · W2 + b2 ).  The kernel program does each layer's dense part in a pallas_call
  over 20 blocks of 5000 nodes, with the whole contracted axis in every block; its casts to a narrower float format are
  the identity on the extended reals, each block product is the plain sum over the contracted axis, and the blocks
  tile the nodes, so each pallas_call leaves ONE array of the arguments: the layer, entry by entry.  The reference's
  products are the same sums, its broadcasts read the same parameter entries, and its logistic function, spelt
  1 / (1 + exp (−z)), is the logistic function once the word of 1.0 is read as one.  The gathers and scatter-adds are
  the same operations on both sides and are never opened.  No law of arithmetic beyond the two programs' own
  association is used, so the finiteness of the inputs is not needed.
  The frames of the two kernel programs are the generated frame certificates; the reference's frame is its
  generated run with the result dropped; the idealization rewrote nothing, so there is nothing to preserve.
-/
import proofs.«127177_j12850542150153_1_alg».proof.Defs
import proofs.«127177_j12850542150153_1_alg».proof.Proof.Gen.Kernel
import proofs.«127177_j12850542150153_1_alg».proof.Proof.FramePKernel
import proofs.«127177_j12850542150153_1_alg».proof.Proof.Gen.KernelIdeal
import proofs.«127177_j12850542150153_1_alg».proof.Proof.FramePKernelIdeal
import proofs.«127177_j12850542150153_1_alg».proof.Proof.Gen.ReferenceIdeal
import proofs.«127177_j12850542150153_1_alg».proof.Proof.Gen.Pre_finite_inputs
import proofs.«127177_j12850542150153_1_alg».proof.Proof.Gen.ReferenceIdeal.Run
import proofs.«127177_j12850542150153_1_alg».proof.Proof.Gen.ReferenceIdeal.Read
import proofs.«127177_j12850542150153_1_alg».proof.Proof.KernelRun
import proofs.«127177_j12850542150153_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates and leaves its arguments unchanged. -/
theorem frame_kernel : Cert.frame_Kernel := fun m ρ _ => Cert.Kernel.GenP.frame m ρ

/-- The idealized kernel program terminates and leaves its arguments unchanged. -/
theorem frame_kernelIdeal : Cert.frame_KernelIdeal := fun m ρ _ => Cert.KernelIdeal.GenP.frame m ρ

/-- The reference terminates and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result vector: the kernel program's
    result buffer holds the reference's result of its own arguments, and those are the reference's arguments. -/
theorem algebraic : Cert.algebraic_KernelIdeal_ReferenceIdeal := by
  intro m ρ m' ρ' _ hagree
  refine ⟨fun c => Cert.KernelIdeal.GenP.W5 m ρ c (Proc.devRef .tc Cert.KernelIdeal.main_v52),
    Cert.KernelIdeal.RunValue.run_result m ρ, ?_⟩
  refine (θ_run (Cert.ReferenceIdeal.defs (F := Ideal)) _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v93_eq, h0, h1, h2, h3, h4, h5, h6, h7, h8, h9, h10, h11, h12, h13, h14, h15, h16, h17, h18, h19]
  exact (Cert.Proof.Bridge.results_agree m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
